-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v219)) (v1 : (c : Dev Cert.KernelIdeal.nD) → Buf (Elt Ideal) ((c.tc : Thread Cert.KernelIdeal.nD Cert.KernelIdeal.τ).loc Cert.KernelIdeal.main_v223)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v219) = v0 c
          ∧ r.2.mem ((c.tc : Thread Cert.KernelIdeal.nD Cert.KernelIdeal.τ).loc Cert.KernelIdeal.main_v223) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v240) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S5x64x64 : Shape := ⟨3, ![5, 64, 64]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S64x8 .f32) (main_arg10 : FVec F S8 .f32) (main_v33 : IVec S_ 1) : IVec S_ 1 :=
  let main_v34 : FVec F S64x8 .f32 := Host.absf main_arg9
  let main_cst_12 : FVec F S_ .f32 := constant S_ .f32 0x7F800000#32
  let main_v35 : FVec F S64x8 .f32 := broadcastInDim S64x8 ![] bcast_S_S64x8 main_cst_12
  let main_v36 : IVec S64x8 1 := cmpf .olt main_v34 main_v35
  let main_c_13 : IVec S_ 1 := constantI S_ 1 1#1
  let main_v37 : IVec S_ 1 := (fun x v => Host.reduce IntOp.andi x v reducesTo_S64x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S5x64x64 .f32) (main_arg7 : FVec F S64x64 .f32) (main_arg8 : FVec F S64 .f32) (main_arg9 : FVec F S64x8 .f32) (main_arg10 : FVec F S8 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S5x64x64 .f32 := Host.absf main_arg6
  let main_cst_6 : FVec F S_ .f32 := constant S_ .f32 0x7F800000#32
  let main_v20 : FVec F S5x64x64 .f32 := broadcastInDim S5x64x64 ![] bcast_S_S5x64x64 main_cst_6
  let main_v21 : IVec S5x64x64 1 := cmpf .olt main_v19 main_v20
  let main_c_7 : IVec S_ 1 := constantI S_ 1 1#1
  let main_v22 : IVec S_ 1 := (fun x v => Host.reduce IntOp.andi x v reducesTo_S5x64x64_S_d0_1_2 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1200000 32) (main_arg2 : IVec S1200000 32) (main_arg3 : FVec F S5x64x64 .f32) (main_arg4 : FVec F S64x64 .f32) (main_arg5 : FVec F S64 .f32) (main_arg6 : FVec F S5x64x64 .f32) (main_arg7 : FVec F S64x64 .f32) (main_arg8 : FVec F S64 .f32) (main_arg9 : FVec F S64x8 .f32) (main_arg10 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg3
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S5x64x64 : Shape := ⟨3, ![5, 64, 64]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x384 : Shape := ⟨2, ![100000, 384]⟩
abbrev S1x64x64 : Shape := ⟨3, ![1, 64, 64]⟩
abbrev S384x64 : Shape := ⟨2, ![384, 64]⟩
abbrev S1x64 : Shape := ⟨2, ![1, 64]⟩
abbrev S4000x384 : Shape := ⟨2, ![4000, 384]⟩
abbrev S4000x64 : Shape := ⟨2, ![4000, 64]⟩
abbrev S1x8 : Shape := ⟨2, ![1, 8]⟩
abbrev S100000x8 : Shape := ⟨2, ![100000, 8]⟩
abbrev S4000x8 : Shape := ⟨2, ![4000, 8]⟩

abbrev nBuf : Space → Nat
  | .hbm => 279
  | .vmem => 18
  | .smem => 0
  | _ => 0

abbrev hbmTy0_0 (i : Nat) : BufTy := match i % 128 with
  | 0 => ⟨S100000x64, .f32⟩
  | 1 => ⟨S2x1200000, .i32⟩
  | 2 => ⟨S1200000, .i32⟩
  | 3 => ⟨S5x64x64, .f32⟩
  | 4 => ⟨S64x64, .f32⟩
  | 5 => ⟨S64, .f32⟩
  | 6 => ⟨S5x64x64, .f32⟩
  | 7 => ⟨S64x64, .f32⟩
  | 8 => ⟨S64, .f32⟩
  | 9 => ⟨S64x8, .f32⟩
  | 10 => ⟨S8, .f32⟩
  | 11 => ⟨S1x1200000, .i32⟩
  | 12 => ⟨S1200000, .i32⟩
  | 13 => ⟨S1x1200000, .i32⟩
  | 14 => ⟨S1200000, .i32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x64, .f32⟩
  | 24 => ⟨S_, .i32⟩
  | 25 => ⟨S1200000, .i32⟩
  | 26 => ⟨S1200000, .i1⟩
  | 27 => ⟨S1200000, .f32⟩
  | 28 => ⟨S1200000x1, .f32⟩
  | 29 => ⟨S1200000x64, .f32⟩
  | 30 => ⟨S1200000x64, .f32⟩
  | 31 => ⟨S_, .f32⟩
  | 32 => ⟨S100000x64, .f32⟩
  | 33 => ⟨S1200000x1, .i32⟩
  | 34 => ⟨S100000x64, .f32⟩
  | 35 => ⟨S_, .f32⟩
  | 36 => ⟨S100000, .f32⟩
  | 37 => ⟨S1200000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S_, .i32⟩
  | 46 => ⟨S1200000, .i32⟩
  | 47 => ⟨S1200000, .i1⟩
  | 48 => ⟨S1200000, .f32⟩
  | 49 => ⟨S1200000x1, .f32⟩
  | 50 => ⟨S1200000x64, .f32⟩
  | 51 => ⟨S1200000x64, .f32⟩
  | 52 => ⟨S_, .f32⟩
  | 53 => ⟨S100000x64, .f32⟩
  | 54 => ⟨S1200000x1, .i32⟩
  | 55 => ⟨S100000x64, .f32⟩
  | 56 => ⟨S_, .f32⟩
  | 57 => ⟨S100000, .f32⟩
  | 58 => ⟨S1200000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x64, .f32⟩
  | 65 => ⟨S100000x64, .f32⟩
  | 66 => ⟨S_, .i32⟩
  | 67 => ⟨S1200000, .i32⟩
  | 68 => ⟨S1200000, .i1⟩
  | 69 => ⟨S1200000, .f32⟩
  | 70 => ⟨S1200000x1, .f32⟩
  | 71 => ⟨S1200000x64, .f32⟩
  | 72 => ⟨S1200000x64, .f32⟩
  | 73 => ⟨S_, .f32⟩
  | 74 => ⟨S100000x64, .f32⟩
  | 75 => ⟨S1200000x1, .i32⟩
  | 76 => ⟨S100000x64, .f32⟩
  | 77 => ⟨S_, .f32⟩
  | 78 => ⟨S100000, .f32⟩
  | 79 => ⟨S1200000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x64, .f32⟩
  | 86 => ⟨S100000x64, .f32⟩
  | 87 => ⟨S_, .i32⟩
  | 88 => ⟨S1200000, .i32⟩
  | 89 => ⟨S1200000, .i1⟩
  | 90 => ⟨S1200000, .f32⟩
  | 91 => ⟨S1200000x1, .f32⟩
  | 92 => ⟨S1200000x64, .f32⟩
  | 93 => ⟨S1200000x64, .f32⟩
  | 94 => ⟨S_, .f32⟩
  | 95 => ⟨S100000x64, .f32⟩
  | 96 => ⟨S1200000x1, .i32⟩
  | 97 => ⟨S100000x64, .f32⟩
  | 98 => ⟨S_, .f32⟩
  | 99 => ⟨S100000, .f32⟩
  | 100 => ⟨S1200000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x64, .f32⟩
  | 107 => ⟨S100000x64, .f32⟩
  | 108 => ⟨S_, .i32⟩
  | 109 => ⟨S1200000, .i32⟩
  | 110 => ⟨S1200000, .i1⟩
  | 111 => ⟨S1200000, .f32⟩
  | 112 => ⟨S1200000x1, .f32⟩
  | 113 => ⟨S1200000x64, .f32⟩
  | 114 => ⟨S1200000x64, .f32⟩
  | 115 => ⟨S_, .f32⟩
  | 116 => ⟨S100000x64, .f32⟩
  | 117 => ⟨S1200000x1, .i32⟩
  | 118 => ⟨S100000x64, .f32⟩
  | 119 => ⟨S_, .f32⟩
  | 120 => ⟨S100000, .f32⟩
  | 121 => ⟨S1200000x1, .i32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S100000x384, .f32⟩
  | 2 => ⟨S1x64x64, .f32⟩
  | 3 => ⟨S64x64, .f32⟩
  | 4 => ⟨S1x64x64, .f32⟩
  | 5 => ⟨S64x64, .f32⟩
  | 6 => ⟨S1x64x64, .f32⟩
  | 7 => ⟨S64x64, .f32⟩
  | 8 => ⟨S1x64x64, .f32⟩
  | 9 => ⟨S64x64, .f32⟩
  | 10 => ⟨S1x64x64, .f32⟩
  | 11 => ⟨S64x64, .f32⟩
  | 12 => ⟨S384x64, .f32⟩
  | 13 => ⟨S100000x384, .bf16⟩
  | 14 => ⟨S384x64, .bf16⟩
  | 15 => ⟨S1x64, .f32⟩
  | 16 => ⟨S100000x64, .f32⟩
  | 17 => ⟨S_, .i32⟩
  | 18 => ⟨S1200000, .i32⟩
  | 19 => ⟨S1200000, .i1⟩
  | 20 => ⟨S_, .i32⟩
  | 21 => ⟨S1200000, .i32⟩
  | 22 => ⟨S1200000, .i32⟩
  | 23 => ⟨S1200000, .i32⟩
  | 24 => ⟨S1200000x1, .i32⟩
  | 25 => ⟨S1200000x64, .f32⟩
  | 26 => ⟨S_, .i32⟩
  | 27 => ⟨S1200000, .i32⟩
  | 28 => ⟨S1200000, .i1⟩
  | 29 => ⟨S1200000, .f32⟩
  | 30 => ⟨S1200000x1, .f32⟩
  | 31 => ⟨S1200000x64, .f32⟩
  | 32 => ⟨S1200000x64, .f32⟩
  | 33 => ⟨S_, .f32⟩
  | 34 => ⟨S100000x64, .f32⟩
  | 35 => ⟨S1200000x1, .i32⟩
  | 36 => ⟨S100000x64, .f32⟩
  | 37 => ⟨S_, .f32⟩
  | 38 => ⟨S100000, .f32⟩
  | 39 => ⟨S1200000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x64, .f32⟩
  | 46 => ⟨S100000x64, .f32⟩
  | 47 => ⟨S_, .i32⟩
  | 48 => ⟨S1200000, .i32⟩
  | 49 => ⟨S1200000, .i1⟩
  | 50 => ⟨S1200000, .f32⟩
  | 51 => ⟨S1200000x1, .f32⟩
  | 52 => ⟨S1200000x64, .f32⟩
  | 53 => ⟨S1200000x64, .f32⟩
  | 54 => ⟨S_, .f32⟩
  | 55 => ⟨S100000x64, .f32⟩
  | 56 => ⟨S1200000x1, .i32⟩
  | 57 => ⟨S100000x64, .f32⟩
  | 58 => ⟨S_, .f32⟩
  | 59 => ⟨S100000, .f32⟩
  | 60 => ⟨S1200000x1, .i32⟩
  | 61 => ⟨S100000, .f32⟩
  | 62 => ⟨S_, .f32⟩
  | 63 => ⟨S100000, .f32⟩
  | 64 => ⟨S100000, .f32⟩
  | 65 => ⟨S100000x1, .f32⟩
  | 66 => ⟨S100000x64, .f32⟩
  | 67 => ⟨S100000x64, .f32⟩
  | 68 => ⟨S_, .i32⟩
  | 69 => ⟨S1200000, .i32⟩
  | 70 => ⟨S1200000, .i1⟩
  | 71 => ⟨S1200000, .f32⟩
  | 72 => ⟨S1200000x1, .f32⟩
  | 73 => ⟨S1200000x64, .f32⟩
  | 74 => ⟨S1200000x64, .f32⟩
  | 75 => ⟨S_, .f32⟩
  | 76 => ⟨S100000x64, .f32⟩
  | 77 => ⟨S1200000x1, .i32⟩
  | 78 => ⟨S100000x64, .f32⟩
  | 79 => ⟨S_, .f32⟩
  | 80 => ⟨S100000, .f32⟩
  | 81 => ⟨S1200000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x64, .f32⟩
  | 88 => ⟨S100000x64, .f32⟩
  | 89 => ⟨S_, .i32⟩
  | 90 => ⟨S1200000, .i32⟩
  | 91 => ⟨S1200000, .i1⟩
  | 92 => ⟨S1200000, .f32⟩
  | 93 => ⟨S1200000x1, .f32⟩
  | 94 => ⟨S1200000x64, .f32⟩
  | 95 => ⟨S1200000x64, .f32⟩
  | 96 => ⟨S_, .f32⟩
  | 97 => ⟨S100000x64, .f32⟩
  | 98 => ⟨S1200000x1, .i32⟩
  | 99 => ⟨S100000x64, .f32⟩
  | 100 => ⟨S_, .f32⟩
  | 101 => ⟨S100000, .f32⟩
  | 102 => ⟨S1200000x1, .i32⟩
  | 103 => ⟨S100000, .f32⟩
  | 104 => ⟨S_, .f32⟩
  | 105 => ⟨S100000, .f32⟩
  | 106 => ⟨S100000, .f32⟩
  | 107 => ⟨S100000x1, .f32⟩
  | 108 => ⟨S100000x64, .f32⟩
  | 109 => ⟨S100000x64, .f32⟩
  | 110 => ⟨S_, .i32⟩
  | 111 => ⟨S1200000, .i32⟩
  | 112 => ⟨S1200000, .i1⟩
  | 113 => ⟨S1200000, .f32⟩
  | 114 => ⟨S1200000x1, .f32⟩
  | 115 => ⟨S1200000x64, .f32⟩
  | 116 => ⟨S1200000x64, .f32⟩
  | 117 => ⟨S_, .f32⟩
  | 118 => ⟨S100000x64, .f32⟩
  | 119 => ⟨S1200000x1, .i32⟩
  | 120 => ⟨S100000x64, .f32⟩
  | 121 => ⟨S_, .f32⟩
  | 122 => ⟨S100000, .f32⟩
  | 123 => ⟨S1200000x1, .i32⟩
  | 124 => ⟨S100000, .f32⟩
  | 125 => ⟨S_, .f32⟩
  | 126 => ⟨S100000, .f32⟩
  | 127 => ⟨S100000, .f32⟩
  | _ => ⟨S100000x64, .f32⟩

abbrev hbmTy0_2 (i : Nat) : BufTy := match i % 128 with
  | 0 => ⟨S100000x1, .f32⟩
  | 1 => ⟨S100000x64, .f32⟩
  | 2 => ⟨S100000x64, .f32⟩
  | 3 => ⟨S100000x384, .f32⟩
  | 4 => ⟨S1x64x64, .f32⟩
  | 5 => ⟨S64x64, .f32⟩
  | 6 => ⟨S1x64x64, .f32⟩
  | 7 => ⟨S64x64, .f32⟩
  | 8 => ⟨S1x64x64, .f32⟩
  | 9 => ⟨S64x64, .f32⟩
  | 10 => ⟨S1x64x64, .f32⟩
  | 11 => ⟨S64x64, .f32⟩
  | 12 => ⟨S1x64x64, .f32⟩
  | 13 => ⟨S64x64, .f32⟩
  | 14 => ⟨S384x64, .f32⟩
  | 15 => ⟨S100000x384, .bf16⟩
  | 16 => ⟨S384x64, .bf16⟩
  | 17 => ⟨S1x64, .f32⟩
  | 18 => ⟨S100000x64, .f32⟩
  | 19 => ⟨S100000x64, .bf16⟩
  | 20 => ⟨S64x8, .bf16⟩
  | 21 => ⟨S1x8, .f32⟩
  | 22 => ⟨S100000x8, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S4000x384, .bf16⟩
  | .local _ .vmem, ⟨1, _⟩ => ⟨S4000x384, .bf16⟩
  | .local _ .vmem, ⟨2, _⟩ => ⟨S384x64, .bf16⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x384, .bf16⟩
  | .local _ .vmem, ⟨7, _⟩ => ⟨S4000x384, .bf16⟩
  | .local _ .vmem, ⟨8, _⟩ => ⟨S384x64, .bf16⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x64, .bf16⟩
  | .local _ .vmem, ⟨13, _⟩ => ⟨S4000x64, .bf16⟩
  | .local _ .vmem, ⟨14, _⟩ => ⟨S64x8, .bf16⟩
  | .local _ .vmem, ⟨15, _⟩ => ⟨S1x8, .f32⟩
  | .local _ .vmem, ⟨16, _⟩ => ⟨S4000x8, .f32⟩
  | .local _ .vmem, ⟨17, _⟩ => ⟨S4000x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_20 : Ref sig .tc := ⟨.hbm, 145, rfl⟩
abbrev main_v112 : Ref sig .tc := ⟨.hbm, 146, rfl⟩
abbrev main_v113 : Ref sig .tc := ⟨.hbm, 147, rfl⟩
abbrev main_c_21 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_c_22 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_23 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_24 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_25 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_c_26 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_27 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_28 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_29 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_c_30 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_31 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_32 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_33 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_c_34 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_35 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_36 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_37 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_c_38 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_39 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_cst_40 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_cst_41 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x8 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x64_S100000x64_S100000x64_S100000x64_S100000x384_d1 : Shape.Concatenates [S100000x64, S100000x64, S100000x64, S100000x64, S100000x64, S100000x64] S100000x384 1
  slices_S5x64x64_S1x64x64_0_0_0 : S5x64x64.Slices ![0, 0, 0] S1x64x64
  shapeCasts_S1x64x64_S64x64 : S1x64x64.ShapeCasts S64x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  concatenates_S64x64_S64x64_S64x64_S64x64_S64x64_S64x64_S384x64_d0 : Shape.Concatenates [S64x64, S64x64, S64x64, S64x64, S64x64, S64x64] S384x64 0
  bitsLt_bf16_f32 : FTy.bits .bf16 < FTy.bits .f32
  shapeCasts_S64_S1x64 : S64.ShapeCasts S1x64
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S8_S1x8 : S8.ShapeCasts S1x8
  shapeCasts_S4000x64_S4000x64 : S4000x64.ShapeCasts S4000x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  inb_S4000x8_S4000x8_0_0 : ∀ a, (![0, 0] : Fin 2 → Nat) a + S4000x8.size a ≤ S4000x8.size a
  h_S4000x8 : 0 < S4000x8.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S4000x384_S384x64_S4000x64_1_0_0_1_n_n_wf : DotDims.WF S4000x384 S384x64 S4000x64 [1] [0] [0] [1] [] []
  dot_S4000x64_S64x8_S4000x8_1_0_0_1_n_n_wf : DotDims.WF S4000x64 S64x8 S4000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x384.size a ≤ S100000x384.size a
  hwx0_0 : ∀ i : grid0.Coords, EltTy.bits .bf16 = 32 ∨ (Rect.block (s := S100000x384) S4000x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .bf16 = 32 ∨ (Rect.block (s := S384x64) S384x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x384.size a ≤ S100000x384.size a
  hwx1_0 : ∀ i : grid1.Coords, EltTy.bits .bf16 = 32 ∨ (Rect.block (s := S100000x384) S4000x384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x64.size a ≤ S384x64.size a
  hwx1_1 : ∀ i : grid1.Coords, EltTy.bits .bf16 = 32 ∨ (Rect.block (s := S384x64) S384x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .bf16 = 32 ∨ (Rect.block (s := S100000x64) S4000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x8.size a ≤ S64x8.size a
  hwx2_1 : ∀ i : grid2.Coords, EltTy.bits .bf16 = 32 ∨ (Rect.block (s := S64x8) S64x8.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x8.size a ≤ S100000x8.size a
  hwx2_3 : ∀ i : grid2.Coords, EltTy.bits .f32 = 32 ∨ (Rect.block (s := S100000x8) S4000x8.size (cc2_transform_3 i) (hinb2_3 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S4000x384_S384x64_S4000x64_1_0_0_1_n_n : DotDims S4000x384 S384x64 S4000x64 where
  lhsContracting := [1]
  rhsContracting := [0]
  lhsNonContracting := [0]
  rhsNonContracting := [1]
  lhsBatch := []
  rhsBatch := []
  wf := dot_S4000x384_S384x64_S4000x64_1_0_0_1_n_n_wf
def dot_S4000x64_S64x8_S4000x8_1_0_0_1_n_n : DotDims S4000x64 S64x8 S4000x8 where
  lhsContracting := [1]
  rhsContracting := [0]
  lhsNonContracting := [0]
  rhsNonContracting := [1]
  lhsBatch := []
  rhsBatch := []
  wf := dot_S4000x64_S64x8_S4000x8_1_0_0_1_n_n_wf

abbrev win0_0 : Pipeline.Window sig grid0 :=
  Pipeline.Window.ofSpec (Memref.whole main_v108) S4000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v109) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v110) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v111) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v216) S4000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v217) S384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v218) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v219) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v220) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v221) S64x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v222) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v223) S4000x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S5x64x64 : Shape := ⟨3, ![5, 64, 64]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1200000 : Shape := ⟨2, ![1, 1200000]⟩
abbrev S1x64 : Shape := ⟨2, ![1, 64]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64x64 : Shape := ⟨3, ![1, 64, 64]⟩
abbrev S100000x8 : Shape := ⟨2, ![100000, 8]⟩
abbrev S1x8 : Shape := ⟨2, ![1, 8]⟩

abbrev nBuf : Space → Nat
  | .hbm => 298
  | .vmem => 0
  | .smem => 0
  | _ => 0

abbrev hbmTy0_0 (i : Nat) : BufTy := match i % 128 with
  | 0 => ⟨S100000x64, .f32⟩
  | 1 => ⟨S2x1200000, .i32⟩
  | 2 => ⟨S1200000, .i32⟩
  | 3 => ⟨S5x64x64, .f32⟩
  | 4 => ⟨S64x64, .f32⟩
  | 5 => ⟨S64, .f32⟩
  | 6 => ⟨S5x64x64, .f32⟩
  | 7 => ⟨S64x64, .f32⟩
  | 8 => ⟨S64, .f32⟩
  | 9 => ⟨S64x8, .f32⟩
  | 10 => ⟨S8, .f32⟩
  | 11 => ⟨S1x1200000, .i32⟩
  | 12 => ⟨S1200000, .i32⟩
  | 13 => ⟨S1x1200000, .i32⟩
  | 14 => ⟨S1200000, .i32⟩
  | 15 => ⟨S100000x64, .f32⟩
  | 16 => ⟨S1x64, .f32⟩
  | 17 => ⟨S100000x64, .f32⟩
  | 18 => ⟨S100000x64, .f32⟩
  | 19 => ⟨S_, .i32⟩
  | 20 => ⟨S1200000, .i32⟩
  | 21 => ⟨S1200000, .i1⟩
  | 22 => ⟨S_, .i32⟩
  | 23 => ⟨S1200000, .i32⟩
  | 24 => ⟨S1200000, .i32⟩
  | 25 => ⟨S1200000, .i32⟩
  | 26 => ⟨S1200000x1, .i32⟩
  | 27 => ⟨S1200000x64, .f32⟩
  | 28 => ⟨S_, .i32⟩
  | 29 => ⟨S1200000, .i32⟩
  | 30 => ⟨S1200000, .i1⟩
  | 31 => ⟨S1200000, .f32⟩
  | 32 => ⟨S1200000x1, .f32⟩
  | 33 => ⟨S1200000x64, .f32⟩
  | 34 => ⟨S1200000x64, .f32⟩
  | 35 => ⟨S_, .f32⟩
  | 36 => ⟨S100000x64, .f32⟩
  | 37 => ⟨S1200000x1, .i32⟩
  | 38 => ⟨S100000x64, .f32⟩
  | 39 => ⟨S_, .f32⟩
  | 40 => ⟨S100000, .f32⟩
  | 41 => ⟨S1200000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S1x64x64, .f32⟩
  | 50 => ⟨S64x64, .f32⟩
  | 51 => ⟨S100000x64, .f32⟩
  | 52 => ⟨S100000x64, .f32⟩
  | 53 => ⟨S_, .i32⟩
  | 54 => ⟨S1200000, .i32⟩
  | 55 => ⟨S1200000, .i1⟩
  | 56 => ⟨S1200000, .f32⟩
  | 57 => ⟨S1200000x1, .f32⟩
  | 58 => ⟨S1200000x64, .f32⟩
  | 59 => ⟨S1200000x64, .f32⟩
  | 60 => ⟨S_, .f32⟩
  | 61 => ⟨S100000x64, .f32⟩
  | 62 => ⟨S1200000x1, .i32⟩
  | 63 => ⟨S100000x64, .f32⟩
  | 64 => ⟨S_, .f32⟩
  | 65 => ⟨S100000, .f32⟩
  | 66 => ⟨S1200000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x64, .f32⟩
  | 73 => ⟨S100000x64, .f32⟩
  | 74 => ⟨S1x64x64, .f32⟩
  | 75 => ⟨S64x64, .f32⟩
  | 76 => ⟨S100000x64, .f32⟩
  | 77 => ⟨S100000x64, .f32⟩
  | 78 => ⟨S_, .i32⟩
  | 79 => ⟨S1200000, .i32⟩
  | 80 => ⟨S1200000, .i1⟩
  | 81 => ⟨S1200000, .f32⟩
  | 82 => ⟨S1200000x1, .f32⟩
  | 83 => ⟨S1200000x64, .f32⟩
  | 84 => ⟨S1200000x64, .f32⟩
  | 85 => ⟨S_, .f32⟩
  | 86 => ⟨S100000x64, .f32⟩
  | 87 => ⟨S1200000x1, .i32⟩
  | 88 => ⟨S100000x64, .f32⟩
  | 89 => ⟨S_, .f32⟩
  | 90 => ⟨S100000, .f32⟩
  | 91 => ⟨S1200000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x64, .f32⟩
  | 98 => ⟨S100000x64, .f32⟩
  | 99 => ⟨S1x64x64, .f32⟩
  | 100 => ⟨S64x64, .f32⟩
  | 101 => ⟨S100000x64, .f32⟩
  | 102 => ⟨S100000x64, .f32⟩
  | 103 => ⟨S_, .i32⟩
  | 104 => ⟨S1200000, .i32⟩
  | 105 => ⟨S1200000, .i1⟩
  | 106 => ⟨S1200000, .f32⟩
  | 107 => ⟨S1200000x1, .f32⟩
  | 108 => ⟨S1200000x64, .f32⟩
  | 109 => ⟨S1200000x64, .f32⟩
  | 110 => ⟨S_, .f32⟩
  | 111 => ⟨S100000x64, .f32⟩
  | 112 => ⟨S1200000x1, .i32⟩
  | 113 => ⟨S100000x64, .f32⟩
  | 114 => ⟨S_, .f32⟩
  | 115 => ⟨S100000, .f32⟩
  | 116 => ⟨S1200000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x64, .f32⟩
  | 123 => ⟨S100000x64, .f32⟩
  | 124 => ⟨S1x64x64, .f32⟩
  | 125 => ⟨S64x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .i32⟩
  | 1 => ⟨S1200000, .i32⟩
  | 2 => ⟨S1200000, .i1⟩
  | 3 => ⟨S1200000, .f32⟩
  | 4 => ⟨S1200000x1, .f32⟩
  | 5 => ⟨S1200000x64, .f32⟩
  | 6 => ⟨S1200000x64, .f32⟩
  | 7 => ⟨S_, .f32⟩
  | 8 => ⟨S100000x64, .f32⟩
  | 9 => ⟨S1200000x1, .i32⟩
  | 10 => ⟨S100000x64, .f32⟩
  | 11 => ⟨S_, .f32⟩
  | 12 => ⟨S100000, .f32⟩
  | 13 => ⟨S1200000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x64, .f32⟩
  | 20 => ⟨S100000x64, .f32⟩
  | 21 => ⟨S1x64x64, .f32⟩
  | 22 => ⟨S64x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000x64, .f32⟩
  | 41 => ⟨S_, .i32⟩
  | 42 => ⟨S1200000, .i32⟩
  | 43 => ⟨S1200000, .i1⟩
  | 44 => ⟨S1200000, .f32⟩
  | 45 => ⟨S1200000x1, .f32⟩
  | 46 => ⟨S1200000x64, .f32⟩
  | 47 => ⟨S1200000x64, .f32⟩
  | 48 => ⟨S_, .f32⟩
  | 49 => ⟨S100000x64, .f32⟩
  | 50 => ⟨S1200000x1, .i32⟩
  | 51 => ⟨S100000x64, .f32⟩
  | 52 => ⟨S_, .f32⟩
  | 53 => ⟨S100000, .f32⟩
  | 54 => ⟨S1200000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x64, .f32⟩
  | 61 => ⟨S100000x64, .f32⟩
  | 62 => ⟨S1x64x64, .f32⟩
  | 63 => ⟨S64x64, .f32⟩
  | 64 => ⟨S100000x64, .f32⟩
  | 65 => ⟨S100000x64, .f32⟩
  | 66 => ⟨S_, .i32⟩
  | 67 => ⟨S1200000, .i32⟩
  | 68 => ⟨S1200000, .i1⟩
  | 69 => ⟨S1200000, .f32⟩
  | 70 => ⟨S1200000x1, .f32⟩
  | 71 => ⟨S1200000x64, .f32⟩
  | 72 => ⟨S1200000x64, .f32⟩
  | 73 => ⟨S_, .f32⟩
  | 74 => ⟨S100000x64, .f32⟩
  | 75 => ⟨S1200000x1, .i32⟩
  | 76 => ⟨S100000x64, .f32⟩
  | 77 => ⟨S_, .f32⟩
  | 78 => ⟨S100000, .f32⟩
  | 79 => ⟨S1200000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S100000x64, .f32⟩
  | 91 => ⟨S_, .i32⟩
  | 92 => ⟨S1200000, .i32⟩
  | 93 => ⟨S1200000, .i1⟩
  | 94 => ⟨S1200000, .f32⟩
  | 95 => ⟨S1200000x1, .f32⟩
  | 96 => ⟨S1200000x64, .f32⟩
  | 97 => ⟨S1200000x64, .f32⟩
  | 98 => ⟨S_, .f32⟩
  | 99 => ⟨S100000x64, .f32⟩
  | 100 => ⟨S1200000x1, .i32⟩
  | 101 => ⟨S100000x64, .f32⟩
  | 102 => ⟨S_, .f32⟩
  | 103 => ⟨S100000, .f32⟩
  | 104 => ⟨S1200000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x64, .f32⟩
  | 111 => ⟨S100000x64, .f32⟩
  | 112 => ⟨S1x64x64, .f32⟩
  | 113 => ⟨S64x64, .f32⟩
  | 114 => ⟨S100000x64, .f32⟩
  | 115 => ⟨S100000x64, .f32⟩
  | 116 => ⟨S_, .i32⟩
  | 117 => ⟨S1200000, .i32⟩
  | 118 => ⟨S1200000, .i1⟩
  | 119 => ⟨S1200000, .f32⟩
  | 120 => ⟨S1200000x1, .f32⟩
  | 121 => ⟨S1200000x64, .f32⟩
  | 122 => ⟨S1200000x64, .f32⟩
  | 123 => ⟨S_, .f32⟩
  | 124 => ⟨S100000x64, .f32⟩
  | 125 => ⟨S1200000x1, .i32⟩
  | 126 => ⟨S100000x64, .f32⟩
  | 127 => ⟨S_, .f32⟩
  | _ => ⟨S100000x64, .f32⟩

abbrev hbmTy0_2 (i : Nat) : BufTy := match i % 128 with
  | 0 => ⟨S100000, .f32⟩
  | 1 => ⟨S1200000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x64, .f32⟩
  | 8 => ⟨S100000x64, .f32⟩
  | 9 => ⟨S1x64x64, .f32⟩
  | 10 => ⟨S64x64, .f32⟩
  | 11 => ⟨S100000x64, .f32⟩
  | 12 => ⟨S100000x64, .f32⟩
  | 13 => ⟨S_, .i32⟩
  | 14 => ⟨S1200000, .i32⟩
  | 15 => ⟨S1200000, .i1⟩
  | 16 => ⟨S1200000, .f32⟩
  | 17 => ⟨S1200000x1, .f32⟩
  | 18 => ⟨S1200000x64, .f32⟩
  | 19 => ⟨S1200000x64, .f32⟩
  | 20 => ⟨S_, .f32⟩
  | 21 => ⟨S100000x64, .f32⟩
  | 22 => ⟨S1200000x1, .i32⟩
  | 23 => ⟨S100000x64, .f32⟩
  | 24 => ⟨S_, .f32⟩
  | 25 => ⟨S100000, .f32⟩
  | 26 => ⟨S1200000x1, .i32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x64, .f32⟩
  | 33 => ⟨S100000x64, .f32⟩
  | 34 => ⟨S1x64x64, .f32⟩
  | 35 => ⟨S64x64, .f32⟩
  | 36 => ⟨S100000x64, .f32⟩
  | 37 => ⟨S100000x64, .f32⟩
  | 38 => ⟨S100000x8, .f32⟩
  | 39 => ⟨S1x8, .f32⟩
  | 40 => ⟨S100000x8, .f32⟩
  | 41 => ⟨S100000x8, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_13 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_14 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_16 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_17 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_18 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_19 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_call0_cst : Ref sig .tc := ⟨.hbm, 153, rfl⟩
abbrev main_call0_v0 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_c_20 : Ref sig .tc := ⟨.hbm, 160, rfl⟩
abbrev main_v125 : Ref sig .tc := ⟨.hbm, 161, rfl⟩
abbrev main_v126 : Ref sig .tc := ⟨.hbm, 162, rfl⟩
abbrev main_c_21 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_c_22 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_23 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_24 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_25 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_c_26 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_27 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_28 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_29 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_c_30 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_cst_31 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_cst_32 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_33 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_c_34 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_cst_35 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_cst_36 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_cst_37 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_c_38 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_cst_39 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_cst_40 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_cst_41 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S5x64x64_S1x64x64_0_0_0 : S5x64x64.Slices ![0, 0, 0] S1x64x64
  shapeCasts_S1x64x64_S64x64 : S1x64x64.ShapeCasts S64x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x8_S100000x8_1_0_0_1_n_n_wf : DotDims.WF S100000x64 S64x8 S100000x8 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf

class Facts : Prop extends Facts₀ where

variable [Facts]
-- ==== Proof.KRegion0.lean ====
/-
  Region 0 of the program (the first layer's matrix product, bias and positive part, over 25 row blocks of 4000): what one grid point's body does to the staging
  buffers, for any contents V the region finds in the TensorCore's buffers.

  Window 0 is the row block of the left matrix at the point, windows 1 and 2 the whole right matrix and the bias row,
  window 3 the row block of the result. The body loads the three input blocks whole and stores one payload into the whole
  output block, so after the body the output's buffer holds that payload of the three blocks and the inputs' buffers
  are as they were. The proof data say exactly this, and the body obligation follows from one symbolic run of the body.
-/
import proofs.«179495_j24472723653074_1_alg».proof.Proof.Gen.Kernel.Launch
import proofs.«179495_j24472723653074_1_alg».proof.Proof.Gen.Kernel.Skeleton
import proofs.«179495_j24472723653074_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S4000x384 := Rect.unit (s := S4000x384) ![0, 0] S4000x384.size inb_S4000x384_S4000x384_0_0
abbrev rW : Rect S384x64 := Rect.unit (s := S384x64) ![0, 0] S384x64.size inb_S384x64_S384x64_0_0
abbrev rB : Rect S1x64 := Rect.unit (s := S1x64) ![0, 0] S1x64.size inb_S1x64_S1x64_0_0
abbrev rO : Rect S4000x64 := Rect.unit (s := S4000x64) ![0, 0] S4000x64.size inb_S4000x64_S4000x64_0_0

/-- The output window's staging buffer after the body, from the three input blocks: its one store as a piece. -/
def out (x0 : Vec F S4000x384 .bf16) (x1 : Vec F S384x64 .bf16) (x2 : Vec F S1x64 .f32) : Vec F S4000x64 .f32 :=
  View.canon [⟨rO, k0_pay1 (View.ld x0 rX) (View.ld x1 rW) (View.ld x2 rB)⟩]

/-- The one store is of the whole block, so it covers it. -/
theorem cover (p0 : Vec F S4000x64 .f32) (y : S4000x64.Idx) :
    ∃ pc ∈ ([⟨rO, p0⟩] : List (View.Piece (Elt F) S4000x64 .f32)), y ∈ pc.1.set :=
  View.cover_of_tiled [⟨rO, p0⟩] S4000x64.size (by rfl) y

set_option maxHeartbeats 4000000 in
/-- The body on whole staging memrefs, the inputs' at contents `x0 x1 x2` and the output's at anything, runs to the
    continuation holding the inputs' as they were and the output's at `out x0 x1 x2`. -/
theorem sound_kernel (c : Dev nD) (E : Set ℕ) (i : grid0.Coords) (arg1 : Memref sig .tc .vmem S4000x384 .bf16) (harg1 : arg1.IsWhole) (arg2 : Memref sig .tc .vmem S384x64 .bf16) (harg2 : arg2.IsWhole) (arg3 : Memref sig .tc .vmem S1x64 .f32) (harg3 : arg3.IsWhole) (arg4 : Memref sig .tc .vmem S4000x64 .f32) (harg4 : arg4.IsWhole)
    (x0 : Vec F S4000x384 .bf16) (x1 : Vec F S384x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of the region's pipeline on core `c`: the arrays as the region finds them; after the body at point
    `t` each input's buffer at its block and the output's at `out` of the input blocks; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the symbolic run applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.KRegion1.lean ====
/-
  Region 1 of the program (the second layer's matrix product and bias, over 25 row blocks of 4000): what one grid point's body does to the staging
  buffers, for any contents V the region finds in the TensorCore's buffers.

  Window 0 is the row block of the left matrix at the point, windows 1 and 2 the whole right matrix and the bias row,
  window 3 the row block of the result. The body loads the three input blocks whole and stores one payload into the whole
  output block, so after the body the output's buffer holds that payload of the three blocks and the inputs' buffers
  are as they were. The proof data say exactly this, and the body obligation follows from one symbolic run of the body.
-/
import proofs.«179495_j24472723653074_1_alg».proof.Proof.Gen.Kernel.Launch
import proofs.«179495_j24472723653074_1_alg».proof.Proof.Gen.Kernel.Skeleton
import proofs.«179495_j24472723653074_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S4000x384 := Rect.unit (s := S4000x384) ![0, 0] S4000x384.size inb_S4000x384_S4000x384_0_0
abbrev rW : Rect S384x64 := Rect.unit (s := S384x64) ![0, 0] S384x64.size inb_S384x64_S384x64_0_0
abbrev rB : Rect S1x64 := Rect.unit (s := S1x64) ![0, 0] S1x64.size inb_S1x64_S1x64_0_0
abbrev rO : Rect S4000x64 := Rect.unit (s := S4000x64) ![0, 0] S4000x64.size inb_S4000x64_S4000x64_0_0

/-- The output window's staging buffer after the body, from the three input blocks: its one store as a piece. -/
def out (x0 : Vec F S4000x384 .bf16) (x1 : Vec F S384x64 .bf16) (x2 : Vec F S1x64 .f32) : Vec F S4000x64 .f32 :=
  View.canon [⟨rO, k1_pay1 (View.ld x0 rX) (View.ld x1 rW) (View.ld x2 rB)⟩]

/-- The one store is of the whole block, so it covers it. -/
theorem cover (p0 : Vec F S4000x64 .f32) (y : S4000x64.Idx) :
    ∃ pc ∈ ([⟨rO, p0⟩] : List (View.Piece (Elt F) S4000x64 .f32)), y ∈ pc.1.set :=
  View.cover_of_tiled [⟨rO, p0⟩] S4000x64.size (by rfl) y

set_option maxHeartbeats 4000000 in
/-- The body on whole staging memrefs, the inputs' at contents `x0 x1 x2` and the output's at anything, runs to the
    continuation holding the inputs' as they were and the output's at `out x0 x1 x2`. -/
theorem sound_kernel (c : Dev nD) (E : Set ℕ) (i : grid1.Coords) (arg1 : Memref sig .tc .vmem S4000x384 .bf16) (harg1 : arg1.IsWhole) (arg2 : Memref sig .tc .vmem S384x64 .bf16) (harg2 : arg2.IsWhole) (arg3 : Memref sig .tc .vmem S1x64 .f32) (harg3 : arg3.IsWhole) (arg4 : Memref sig .tc .vmem S4000x64 .f32) (harg4 : arg4.IsWhole)
    (x0 : Vec F S4000x384 .bf16) (x1 : Vec F S384x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of the region's pipeline on core `c`: the arrays as the region finds them; after the body at point
    `t` each input's buffer at its block and the output's at `out` of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so the symbolic run applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Region1

end
-- ==== Proof.KRegion2.lean ====
/-
  Region 2 of the program (the classifier's matrix product and bias, over 25 row blocks of 4000): what one grid point's body does to the staging
  buffers, for any contents V the region finds in the TensorCore's buffers.

  Window 0 is the row block of the left matrix at the point, windows 1 and 2 the whole right matrix and the bias row,
  window 3 the row block of the result. The body loads the three input blocks whole and stores one payload into the whole
  output block, so after the body the output's buffer holds that payload of the three blocks and the inputs' buffers
  are as they were. The proof data say exactly this, and the body obligation follows from one symbolic run of the body.
-/
import proofs.«179495_j24472723653074_1_alg».proof.Proof.Gen.Kernel.Launch
import proofs.«179495_j24472723653074_1_alg».proof.Proof.Gen.Kernel.Skeleton
import proofs.«179495_j24472723653074_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is the entry contents and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S4000x64 := Rect.unit (s := S4000x64) ![0, 0] S4000x64.size inb_S4000x64_S4000x64_0_0
abbrev rW : Rect S64x8 := Rect.unit (s := S64x8) ![0, 0] S64x8.size inb_S64x8_S64x8_0_0
abbrev rB : Rect S1x8 := Rect.unit (s := S1x8) ![0, 0] S1x8.size inb_S1x8_S1x8_0_0
abbrev rO : Rect S4000x8 := Rect.unit (s := S4000x8) ![0, 0] S4000x8.size inb_S4000x8_S4000x8_0_0

/-- The output window's staging buffer after the body, from the three input blocks: its one store as a piece. -/
def out (x0 : Vec F S4000x64 .bf16) (x1 : Vec F S64x8 .bf16) (x2 : Vec F S1x8 .f32) : Vec F S4000x8 .f32 :=
  View.canon [⟨rO, k2_pay1 (View.ld x0 rX) (View.ld x1 rW) (View.ld x2 rB)⟩]

/-- The one store is of the whole block, so it covers it. -/
theorem cover (p0 : Vec F S4000x8 .f32) (y : S4000x8.Idx) :
    ∃ pc ∈ ([⟨rO, p0⟩] : List (View.Piece (Elt F) S4000x8 .f32)), y ∈ pc.1.set :=
  View.cover_of_tiled [⟨rO, p0⟩] S4000x8.size (by rfl) y

set_option maxHeartbeats 4000000 in
/-- The body on whole staging memrefs, the inputs' at contents `x0 x1 x2` and the output's at anything, runs to the
    continuation holding the inputs' as they were and the output's at `out x0 x1 x2`. -/
theorem sound_kernel (c : Dev nD) (E : Set ℕ) (i : grid2.Coords) (arg1 : Memref sig .tc .vmem S4000x64 .bf16) (harg1 : arg1.IsWhole) (arg2 : Memref sig .tc .vmem S64x8 .bf16) (harg2 : arg2.IsWhole) (arg3 : Memref sig .tc .vmem S1x8 .f32) (harg3 : arg3.IsWhole) (arg4 : Memref sig .tc .vmem S4000x8 .f32) (harg4 : arg4.IsWhole)
    (x0 : Vec F S4000x64 .bf16) (x1 : Vec F S64x8 .bf16) (x2 : Vec F S1x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of the region's pipeline on core `c`: the arrays as the region finds them; after the body at point
    `t` each input's buffer at its block and the output's at `out` of the input blocks; the invariant the scoped rest
    and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out (iblk V c 0 t) (iblk V c 1 t) (iblk V c 2 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so the symbolic run applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Region2

end
-- ==== Proof.KRun.lean ====
/-
  The whole run of the program: three stretches of host operations, each followed by a device region.

  The buffer contents at each boundary are a fold from the launch memory: a host stretch applies its operations in
  order; a region leaves its arrays at what its write-backs produce and every other buffer as it found it. Each region's
  proof data is taken at its own entry contents. The launch theorem for a list of segments then says that every weakly
  fair execution terminates without a fault with every unscoped buffer at the last fold.
-/
import proofs.«179495_j24472723653074_1_alg».proof.Proof.KRegion0
import proofs.«179495_j24472723653074_1_alg».proof.Proof.KRegion1
import proofs.«179495_j24472723653074_1_alg».proof.Proof.KRegion2

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before region 0 (the region's entry contents). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (Region0.dat (V1 m ρ) c).arrAt w cfg0.N
theorem W2_arr (c : Dev nD) (w : Fin cfg0.W) :
    W2 m ρ c (Proc.devRef .tc (Pipeline.arrRef spec0 w)) = (Region0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Region0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1 (the region's entry contents). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, the output's write-backs
    folded), every other buffer as entered. -/
def W4 (c : Dev nD) : Valuation τ sig (Elt F) :=
  Pipeline.withArrays spec1 c (W3 m ρ c) fun w => (Region1.dat (V3 m ρ) c).arrAt w cfg1.N
theorem W4_arr (c : Dev nD) (w : Fin cfg1.W) :
    W4 m ρ c (Proc.devRef .tc (Pipeline.arrRef spec1 w)) = (Region1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Region1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2 (the region's entry contents). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, the output's write-backs
    folded), every other buffer as entered. -/
def W6 (c : Dev nD) : Valuation τ sig (Elt F) :=
  Pipeline.withArrays spec2 c (W5 m ρ c) fun w => (Region2.dat (V5 m ρ) c).arrAt w cfg2.N
theorem W6_arr (c : Dev nD) (w : Fin cfg2.W) :
    W6 m ρ c (Proc.devRef .tc (Pipeline.arrRef spec2 w)) = (Region2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Region2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (V1 m ρ) c
  | ⟨1, _⟩ => fun c => Region1.dat (V3 m ρ) c
  | ⟨2, _⟩ => fun c => Region2.dat (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

set_option maxHeartbeats 4000000 in
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each unscoped buffer holds the last fold's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Run

end
-- ==== Proof.KKept.lean ====
/-
  The argument arrays end as launched.

  No host operation writes an argument's buffer and no region has one among its arrays, so the fold of the buffer
  contents through the program, read at an argument, walks back to the launch memory. With the run of the program this
  is the frame claim: termination without a fault, the arguments unchanged.
-/
import proofs.«179495_j24472723653074_1_alg».proof.Proof.KRun

set_option maxRecDepth 16384

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The eleven argument references. -/
def argRefs : Finset (Ref sig .tc) :=
  {main_arg0, main_arg1, main_arg2, main_arg3, main_arg4, main_arg5, main_arg6, main_arg7, main_arg8, main_arg9, main_arg10}

/-- A reference that is none of the buffers a literal list of host operations writes keeps its contents: the list is
    walked once, each operation's written buffer read off and found outside the argument set. -/
macro "args_kept" l:ident hb:ident : tactic => `(tactic| (
  refine StableHlo.after_of_forall_not_mem _ _ (List.forall_iff_forall_mem.mp ?_)
  simp only [$l:ident, List.Forall, StableHlo.nullary_writes, StableHlo.unary_writes,
    StableHlo.binary_writes, StableHlo.ternary_writes, StableHlo.quaternary_writes, StableHlo.reshape_writes,
    StableHlo.nary_writes, Finset.mem_singleton]
  repeat' apply And.intro
  all_goals exact StableHlo.devRef_ne_of_ne (fun h => absurd (h ▸ $hb) (by decide))))

set_option maxHeartbeats 4000000 in
theorem kept0 (v : Valuation τ sig (Elt F)) (b : Ref sig .tc) (hb : b ∈ argRefs) :
    StableHlo.after hostOps0 v (Proc.devRef .tc b) = v (Proc.devRef .tc b) := by
  args_kept hostOps0 hb
set_option maxHeartbeats 4000000 in
theorem kept1 (v : Valuation τ sig (Elt F)) (b : Ref sig .tc) (hb : b ∈ argRefs) :
    StableHlo.after hostOps1 v (Proc.devRef .tc b) = v (Proc.devRef .tc b) := by
  args_kept hostOps1 hb
theorem kept2 (v : Valuation τ sig (Elt F)) (b : Ref sig .tc) (hb : b ∈ argRefs) :
    StableHlo.after hostOps2 v (Proc.devRef .tc b) = v (Proc.devRef .tc b) := by
  args_kept hostOps2 hb

/-- No region has an argument among its arrays. -/
theorem not_arr0 (b : Ref sig .tc) (hb : b ∈ argRefs) : ∀ w, Pipeline.arrRef spec0 w ≠ b :=
  fun w h => absurd (h ▸ hb) ((by decide : ∀ w, Pipeline.arrRef spec0 w ∉ argRefs) w)
theorem not_arr1 (b : Ref sig .tc) (hb : b ∈ argRefs) : ∀ w, Pipeline.arrRef spec1 w ≠ b :=
  fun w h => absurd (h ▸ hb) ((by decide : ∀ w, Pipeline.arrRef spec1 w ∉ argRefs) w)
theorem not_arr2 (b : Ref sig .tc) (hb : b ∈ argRefs) : ∀ w, Pipeline.arrRef spec2 w ≠ b :=
  fun w h => absurd (h ▸ hb) ((by decide : ∀ w, Pipeline.arrRef spec2 w ∉ argRefs) w)

/-- The last fold at an argument is the launch memory. -/
theorem W6_arg (c : Dev nD) (b : Ref sig .tc) (hb : b ∈ argRefs) :
    W6 m ρ c (Proc.devRef .tc b) = m ((c : Thread nD τ).loc b) :=
  calc W6 m ρ c (Proc.devRef .tc b)
    _ = W5 m ρ c (Proc.devRef .tc b) := W6_of_ne m ρ c b (not_arr2 b hb)
    _ = W4 m ρ c (Proc.devRef .tc b) := kept2 _ b hb
    _ = W3 m ρ c (Proc.devRef .tc b) := W4_of_ne m ρ c b (not_arr1 b hb)
    _ = W2 m ρ c (Proc.devRef .tc b) := kept1 _ b hb
    _ = W1 m ρ c (Proc.devRef .tc b) := W2_of_ne m ρ c b (not_arr0 b hb)
    _ = W0 m ρ c (Proc.devRef .tc b) := kept0 _ b hb
    _ = m ((c : Thread nD τ).loc b) := rfl

/-- The fold after region 0 and after region 1 at an argument is the launch memory too. -/
theorem W2_arg (c : Dev nD) (b : Ref sig .tc) (hb : b ∈ argRefs) :
    W2 m ρ c (Proc.devRef .tc b) = m ((c : Thread nD τ).loc b) :=
  calc W2 m ρ c (Proc.devRef .tc b)
    _ = W1 m ρ c (Proc.devRef .tc b) := W2_of_ne m ρ c b (not_arr0 b hb)
    _ = W0 m ρ c (Proc.devRef .tc b) := kept0 _ b hb
    _ = m ((c : Thread nD τ).loc b) := rfl
theorem W4_arg (c : Dev nD) (b : Ref sig .tc) (hb : b ∈ argRefs) :
    W4 m ρ c (Proc.devRef .tc b) = m ((c : Thread nD τ).loc b) :=
  calc W4 m ρ c (Proc.devRef .tc b)
    _ = W3 m ρ c (Proc.devRef .tc b) := W4_of_ne m ρ c b (not_arr1 b hb)
    _ = W2 m ρ c (Proc.devRef .tc b) := kept1 _ b hb
    _ = m ((c : Thread nD τ).loc b) := W2_arg m ρ c b hb

/-- The frame: every weakly fair execution terminates without a fault and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have key : ∀ b : Ref sig .tc, b ∈ argRefs → ¬ (Proc.devRef .tc b : DevRef τ sig).isScoped →
        r.2.mem ((c.tc : Thread nD τ).loc b) = m ((c.tc : Thread nD τ).loc b) :=
      fun b hb hs => (h c _ (mem_uc b hs)).trans (W6_arg m ρ c b hb)
    ⟨key main_arg0 (by decide) (by decide), key main_arg1 (by decide) (by decide), key main_arg2 (by decide) (by decide),
      key main_arg3 (by decide) (by decide), key main_arg4 (by decide) (by decide), key main_arg5 (by decide) (by decide),
      key main_arg6 (by decide) (by decide), key main_arg7 (by decide) (by decide), key main_arg8 (by decide) (by decide),
      key main_arg9 (by decide) (by decide), key main_arg10 (by decide) (by decide)⟩) (run_main m ρ)

end Cert.Kernel.Run

end
-- ==== Proof.KIRegion0.lean ====
/-
  Region 0 of the program (the first layer's matrix product, bias and positive part, over 25 row blocks of 4000): what one grid point's body does to the staging
  buffers, for any contents V the region finds in the TensorCore's buffers.

  Window 0 is the row block of the left matrix at the point, windows 1 and 2 the whole right matrix and the bias row,
  window 3 the row block of the result. The body loads the three input blocks whole and stores one payload into the whole
  output block, so after the body the output's buffer holds that payload of the three blocks and the inputs' buffers
  are as they were. The proof data say exactly this, and the body obligation follows from one symbolic run of the body.
-/
import proofs.«179495_j24472723653074_1_alg».proof.Proof.Gen.KernelIdeal.Launch
import proofs.«179495_j24472723653074_1_alg».proof.Proof.Gen.KernelIdeal.Skeleton
import proofs.«179495_j24472723653074_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S4000x384 := Rect.unit (s := S4000x384) ![0, 0] S4000x384.size inb_S4000x384_S4000x384_0_0
abbrev rW : Rect S384x64 := Rect.unit (s := S384x64) ![0, 0] S384x64.size inb_S384x64_S384x64_0_0
abbrev rB : Rect S1x64 := Rect.unit (s := S1x64) ![0, 0] S1x64.size inb_S1x64_S1x64_0_0
abbrev rO : Rect S4000x64 := Rect.unit (s := S4000x64) ![0, 0] S4000x64.size inb_S4000x64_S4000x64_0_0

/-- The output window's staging buffer after the body, from the three input blocks: its one store as a piece. -/
def out (x0 : Vec F S4000x384 .bf16) (x1 : Vec F S384x64 .bf16) (x2 : Vec F S1x64 .f32) : Vec F S4000x64 .f32 :=
  View.canon [⟨rO, k0_pay1 (View.ld x0 rX) (View.ld x1 rW) (View.ld x2 rB)⟩]

/-- The one store is of the whole block, so it covers it. -/
theorem cover (p0 : Vec F S4000x64 .f32) (y : S4000x64.Idx) :
    ∃ pc ∈ ([⟨rO, p0⟩] : List (View.Piece (Elt F) S4000x64 .f32)), y ∈ pc.1.set :=
  View.cover_of_tiled [⟨rO, p0⟩] S4000x64.size (by rfl) y

set_option maxHeartbeats 4000000 in
/-- The body on whole staging memrefs, the inputs' at contents `x0 x1 x2` and the output's at anything, runs to the
    continuation holding the inputs' as they were and the output's at `out x0 x1 x2`. -/
theorem sound_kernel (c : Dev nD) (E : Set ℕ) (i : grid0.Coords) (arg1 : Memref sig .tc .vmem S4000x384 .bf16) (harg1 : arg1.IsWhole) (arg2 : Memref sig .tc .vmem S384x64 .bf16) (harg2 : arg2.IsWhole) (arg3 : Memref sig .tc .vmem S1x64 .f32) (harg3 : arg3.IsWhole) (arg4 : Memref sig .tc .vmem S4000x64 .f32) (harg4 : arg4.IsWhole)
    (x0 : Vec F S4000x384 .bf16) (x1 : Vec F S384x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of the region's pipeline on core `c`: the arrays as the region finds them; after the body at point
    `t` each input's buffer at its block and the output's at `out` of the input blocks; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the symbolic run applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.KIRegion1.lean ====
/-
  Region 1 of the program (the second layer's matrix product and bias, over 25 row blocks of 4000): what one grid point's body does to the staging
  buffers, for any contents V the region finds in the TensorCore's buffers.

  Window 0 is the row block of the left matrix at the point, windows 1 and 2 the whole right matrix and the bias row,
  window 3 the row block of the result. The body loads the three input blocks whole and stores one payload into the whole
  output block, so after the body the output's buffer holds that payload of the three blocks and the inputs' buffers
  are as they were. The proof data say exactly this, and the body obligation follows from one symbolic run of the body.
-/
import proofs.«179495_j24472723653074_1_alg».proof.Proof.Gen.KernelIdeal.Launch
import proofs.«179495_j24472723653074_1_alg».proof.Proof.Gen.KernelIdeal.Skeleton
import proofs.«179495_j24472723653074_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S4000x384 := Rect.unit (s := S4000x384) ![0, 0] S4000x384.size inb_S4000x384_S4000x384_0_0
abbrev rW : Rect S384x64 := Rect.unit (s := S384x64) ![0, 0] S384x64.size inb_S384x64_S384x64_0_0
abbrev rB : Rect S1x64 := Rect.unit (s := S1x64) ![0, 0] S1x64.size inb_S1x64_S1x64_0_0
abbrev rO : Rect S4000x64 := Rect.unit (s := S4000x64) ![0, 0] S4000x64.size inb_S4000x64_S4000x64_0_0

/-- The output window's staging buffer after the body, from the three input blocks: its one store as a piece. -/
def out (x0 : Vec F S4000x384 .bf16) (x1 : Vec F S384x64 .bf16) (x2 : Vec F S1x64 .f32) : Vec F S4000x64 .f32 :=
  View.canon [⟨rO, k1_pay1 (View.ld x0 rX) (View.ld x1 rW) (View.ld x2 rB)⟩]

/-- The one store is of the whole block, so it covers it. -/
theorem cover (p0 : Vec F S4000x64 .f32) (y : S4000x64.Idx) :
    ∃ pc ∈ ([⟨rO, p0⟩] : List (View.Piece (Elt F) S4000x64 .f32)), y ∈ pc.1.set :=
  View.cover_of_tiled [⟨rO, p0⟩] S4000x64.size (by rfl) y

set_option maxHeartbeats 4000000 in
/-- The body on whole staging memrefs, the inputs' at contents `x0 x1 x2` and the output's at anything, runs to the
    continuation holding the inputs' as they were and the output's at `out x0 x1 x2`. -/
theorem sound_kernel (c : Dev nD) (E : Set ℕ) (i : grid1.Coords) (arg1 : Memref sig .tc .vmem S4000x384 .bf16) (harg1 : arg1.IsWhole) (arg2 : Memref sig .tc .vmem S384x64 .bf16) (harg2 : arg2.IsWhole) (arg3 : Memref sig .tc .vmem S1x64 .f32) (harg3 : arg3.IsWhole) (arg4 : Memref sig .tc .vmem S4000x64 .f32) (harg4 : arg4.IsWhole)
    (x0 : Vec F S4000x384 .bf16) (x1 : Vec F S384x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of the region's pipeline on core `c`: the arrays as the region finds them; after the body at point
    `t` each input's buffer at its block and the output's at `out` of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so the symbolic run applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Region1

end
-- ==== Proof.KIRegion2.lean ====
/-
  Region 2 of the program (the classifier's matrix product and bias, over 25 row blocks of 4000): what one grid point's body does to the staging
  buffers, for any contents V the region finds in the TensorCore's buffers.

  Window 0 is the row block of the left matrix at the point, windows 1 and 2 the whole right matrix and the bias row,
  window 3 the row block of the result. The body loads the three input blocks whole and stores one payload into the whole
  output block, so after the body the output's buffer holds that payload of the three blocks and the inputs' buffers
  are as they were. The proof data say exactly this, and the body obligation follows from one symbolic run of the body.
-/
import proofs.«179495_j24472723653074_1_alg».proof.Proof.Gen.KernelIdeal.Launch
import proofs.«179495_j24472723653074_1_alg».proof.Proof.Gen.KernelIdeal.Skeleton
import proofs.«179495_j24472723653074_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is the entry contents and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S4000x64 := Rect.unit (s := S4000x64) ![0, 0] S4000x64.size inb_S4000x64_S4000x64_0_0
abbrev rW : Rect S64x8 := Rect.unit (s := S64x8) ![0, 0] S64x8.size inb_S64x8_S64x8_0_0
abbrev rB : Rect S1x8 := Rect.unit (s := S1x8) ![0, 0] S1x8.size inb_S1x8_S1x8_0_0
abbrev rO : Rect S4000x8 := Rect.unit (s := S4000x8) ![0, 0] S4000x8.size inb_S4000x8_S4000x8_0_0

/-- The output window's staging buffer after the body, from the three input blocks: its one store as a piece. -/
def out (x0 : Vec F S4000x64 .bf16) (x1 : Vec F S64x8 .bf16) (x2 : Vec F S1x8 .f32) : Vec F S4000x8 .f32 :=
  View.canon [⟨rO, k2_pay1 (View.ld x0 rX) (View.ld x1 rW) (View.ld x2 rB)⟩]

/-- The one store is of the whole block, so it covers it. -/
theorem cover (p0 : Vec F S4000x8 .f32) (y : S4000x8.Idx) :
    ∃ pc ∈ ([⟨rO, p0⟩] : List (View.Piece (Elt F) S4000x8 .f32)), y ∈ pc.1.set :=
  View.cover_of_tiled [⟨rO, p0⟩] S4000x8.size (by rfl) y

set_option maxHeartbeats 4000000 in
/-- The body on whole staging memrefs, the inputs' at contents `x0 x1 x2` and the output's at anything, runs to the
    continuation holding the inputs' as they were and the output's at `out x0 x1 x2`. -/
theorem sound_kernel (c : Dev nD) (E : Set ℕ) (i : grid2.Coords) (arg1 : Memref sig .tc .vmem S4000x64 .bf16) (harg1 : arg1.IsWhole) (arg2 : Memref sig .tc .vmem S64x8 .bf16) (harg2 : arg2.IsWhole) (arg3 : Memref sig .tc .vmem S1x8 .f32) (harg3 : arg3.IsWhole) (arg4 : Memref sig .tc .vmem S4000x8 .f32) (harg4 : arg4.IsWhole)
    (x0 : Vec F S4000x64 .bf16) (x1 : Vec F S64x8 .bf16) (x2 : Vec F S1x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of the region's pipeline on core `c`: the arrays as the region finds them; after the body at point
    `t` each input's buffer at its block and the output's at `out` of the input blocks; the invariant the scoped rest
    and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out (iblk V c 0 t) (iblk V c 1 t) (iblk V c 2 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so the symbolic run applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Region2

end
-- ==== Proof.KIRun.lean ====
/-
  The whole run of the program: three stretches of host operations, each followed by a device region.

  The buffer contents at each boundary are a fold from the launch memory: a host stretch applies its operations in
  order; a region leaves its arrays at what its write-backs produce and every other buffer as it found it. Each region's
  proof data is taken at its own entry contents. The launch theorem for a list of segments then says that every weakly
  fair execution terminates without a fault with every unscoped buffer at the last fold.
-/
import proofs.«179495_j24472723653074_1_alg».proof.Proof.KIRegion0
import proofs.«179495_j24472723653074_1_alg».proof.Proof.KIRegion1
import proofs.«179495_j24472723653074_1_alg».proof.Proof.KIRegion2

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before region 0 (the region's entry contents). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (Region0.dat (V1 m ρ) c).arrAt w cfg0.N
theorem W2_arr (c : Dev nD) (w : Fin cfg0.W) :
    W2 m ρ c (Proc.devRef .tc (Pipeline.arrRef spec0 w)) = (Region0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Region0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1 (the region's entry contents). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, the output's write-backs
    folded), every other buffer as entered. -/
def W4 (c : Dev nD) : Valuation τ sig (Elt F) :=
  Pipeline.withArrays spec1 c (W3 m ρ c) fun w => (Region1.dat (V3 m ρ) c).arrAt w cfg1.N
theorem W4_arr (c : Dev nD) (w : Fin cfg1.W) :
    W4 m ρ c (Proc.devRef .tc (Pipeline.arrRef spec1 w)) = (Region1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Region1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2 (the region's entry contents). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, the output's write-backs
    folded), every other buffer as entered. -/
def W6 (c : Dev nD) : Valuation τ sig (Elt F) :=
  Pipeline.withArrays spec2 c (W5 m ρ c) fun w => (Region2.dat (V5 m ρ) c).arrAt w cfg2.N
theorem W6_arr (c : Dev nD) (w : Fin cfg2.W) :
    W6 m ρ c (Proc.devRef .tc (Pipeline.arrRef spec2 w)) = (Region2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Region2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (V1 m ρ) c
  | ⟨1, _⟩ => fun c => Region1.dat (V3 m ρ) c
  | ⟨2, _⟩ => fun c => Region2.dat (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

set_option maxHeartbeats 4000000 in
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each unscoped buffer holds the last fold's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Run

end
-- ==== Proof.KIKept.lean ====
/-
  The argument arrays end as launched.

  No host operation writes an argument's buffer and no region has one among its arrays, so the fold of the buffer
  contents through the program, read at an argument, walks back to the launch memory. With the run of the program this
  is the frame claim: termination without a fault, the arguments unchanged.
-/
import proofs.«179495_j24472723653074_1_alg».proof.Proof.KIRun

set_option maxRecDepth 16384

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The eleven argument references. -/
def argRefs : Finset (Ref sig .tc) :=
  {main_arg0, main_arg1, main_arg2, main_arg3, main_arg4, main_arg5, main_arg6, main_arg7, main_arg8, main_arg9, main_arg10}

/-- A reference that is none of the buffers a literal list of host operations writes keeps its contents: the list is
    walked once, each operation's written buffer read off and found outside the argument set. -/
macro "args_kept" l:ident hb:ident : tactic => `(tactic| (
  refine StableHlo.after_of_forall_not_mem _ _ (List.forall_iff_forall_mem.mp ?_)
  simp only [$l:ident, List.Forall, StableHlo.nullary_writes, StableHlo.unary_writes,
    StableHlo.binary_writes, StableHlo.ternary_writes, StableHlo.quaternary_writes, StableHlo.reshape_writes,
    StableHlo.nary_writes, Finset.mem_singleton]
  repeat' apply And.intro
  all_goals exact StableHlo.devRef_ne_of_ne (fun h => absurd (h ▸ $hb) (by decide))))

set_option maxHeartbeats 4000000 in
theorem kept0 (v : Valuation τ sig (Elt F)) (b : Ref sig .tc) (hb : b ∈ argRefs) :
    StableHlo.after hostOps0 v (Proc.devRef .tc b) = v (Proc.devRef .tc b) := by
  args_kept hostOps0 hb
set_option maxHeartbeats 4000000 in
theorem kept1 (v : Valuation τ sig (Elt F)) (b : Ref sig .tc) (hb : b ∈ argRefs) :
    StableHlo.after hostOps1 v (Proc.devRef .tc b) = v (Proc.devRef .tc b) := by
  args_kept hostOps1 hb
theorem kept2 (v : Valuation τ sig (Elt F)) (b : Ref sig .tc) (hb : b ∈ argRefs) :
    StableHlo.after hostOps2 v (Proc.devRef .tc b) = v (Proc.devRef .tc b) := by
  args_kept hostOps2 hb

/-- No region has an argument among its arrays. -/
theorem not_arr0 (b : Ref sig .tc) (hb : b ∈ argRefs) : ∀ w, Pipeline.arrRef spec0 w ≠ b :=
  fun w h => absurd (h ▸ hb) ((by decide : ∀ w, Pipeline.arrRef spec0 w ∉ argRefs) w)
theorem not_arr1 (b : Ref sig .tc) (hb : b ∈ argRefs) : ∀ w, Pipeline.arrRef spec1 w ≠ b :=
  fun w h => absurd (h ▸ hb) ((by decide : ∀ w, Pipeline.arrRef spec1 w ∉ argRefs) w)
theorem not_arr2 (b : Ref sig .tc) (hb : b ∈ argRefs) : ∀ w, Pipeline.arrRef spec2 w ≠ b :=
  fun w h => absurd (h ▸ hb) ((by decide : ∀ w, Pipeline.arrRef spec2 w ∉ argRefs) w)

/-- The last fold at an argument is the launch memory. -/
theorem W6_arg (c : Dev nD) (b : Ref sig .tc) (hb : b ∈ argRefs) :
    W6 m ρ c (Proc.devRef .tc b) = m ((c : Thread nD τ).loc b) :=
  calc W6 m ρ c (Proc.devRef .tc b)
    _ = W5 m ρ c (Proc.devRef .tc b) := W6_of_ne m ρ c b (not_arr2 b hb)
    _ = W4 m ρ c (Proc.devRef .tc b) := kept2 _ b hb
    _ = W3 m ρ c (Proc.devRef .tc b) := W4_of_ne m ρ c b (not_arr1 b hb)
    _ = W2 m ρ c (Proc.devRef .tc b) := kept1 _ b hb
    _ = W1 m ρ c (Proc.devRef .tc b) := W2_of_ne m ρ c b (not_arr0 b hb)
    _ = W0 m ρ c (Proc.devRef .tc b) := kept0 _ b hb
    _ = m ((c : Thread nD τ).loc b) := rfl

/-- The fold after region 0 and after region 1 at an argument is the launch memory too. -/
theorem W2_arg (c : Dev nD) (b : Ref sig .tc) (hb : b ∈ argRefs) :
    W2 m ρ c (Proc.devRef .tc b) = m ((c : Thread nD τ).loc b) :=
  calc W2 m ρ c (Proc.devRef .tc b)
    _ = W1 m ρ c (Proc.devRef .tc b) := W2_of_ne m ρ c b (not_arr0 b hb)
    _ = W0 m ρ c (Proc.devRef .tc b) := kept0 _ b hb
    _ = m ((c : Thread nD τ).loc b) := rfl
theorem W4_arg (c : Dev nD) (b : Ref sig .tc) (hb : b ∈ argRefs) :
    W4 m ρ c (Proc.devRef .tc b) = m ((c : Thread nD τ).loc b) :=
  calc W4 m ρ c (Proc.devRef .tc b)
    _ = W3 m ρ c (Proc.devRef .tc b) := W4_of_ne m ρ c b (not_arr1 b hb)
    _ = W2 m ρ c (Proc.devRef .tc b) := kept1 _ b hb
    _ = m ((c : Thread nD τ).loc b) := W2_arg m ρ c b hb

/-- The frame: every weakly fair execution terminates without a fault and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have key : ∀ b : Ref sig .tc, b ∈ argRefs → ¬ (Proc.devRef .tc b : DevRef τ sig).isScoped →
        r.2.mem ((c.tc : Thread nD τ).loc b) = m ((c.tc : Thread nD τ).loc b) :=
      fun b hb hs => (h c _ (mem_uc b hs)).trans (W6_arg m ρ c b hb)
    ⟨key main_arg0 (by decide) (by decide), key main_arg1 (by decide) (by decide), key main_arg2 (by decide) (by decide),
      key main_arg3 (by decide) (by decide), key main_arg4 (by decide) (by decide), key main_arg5 (by decide) (by decide),
      key main_arg6 (by decide) (by decide), key main_arg7 (by decide) (by decide), key main_arg8 (by decide) (by decide),
      key main_arg9 (by decide) (by decide), key main_arg10 (by decide) (by decide)⟩) (run_main m ρ)

end Cert.KernelIdeal.Run

end
-- ==== Proof.HostSpec.lean ====
/-
  The host-side terms of the kernel program, as functions of whole arrays.

  One graph-convolution layer feeds its matrix product with three arrays: the node features joined
  along the columns with the five per-relation neighbourhood means, the root weight matrix stacked on
  the five per-relation weight matrices, and the bias as a row. Each is spelt here operation by
  operation, over an arbitrary float model.

  The mean of relation r at a node is: the rows of the features gathered at the source node of every
  edge, kept where the edge's relation is r and zeroed elsewhere, added up at the edge's destination
  node, and divided by the larger of the number of such edges and one.
-/
import proofs.«179495_j24472723653074_1_alg».proof.KernelIdeal

noncomputable section

namespace Cert.HostSpec

open Idealize.ShloMosaic Cert.KernelIdeal
open Cert.KernelIdeal.Facts₀

variable {F : FTy → Type} [FloatOps F] [Facts₀]

/-! ## The edge list -/

/-- The source node of every edge: row 0 of the edge list, as a vector. -/
def edgeSrc (ei : (⟨S2x1200000, .i32⟩ : BufTy).Contents (Elt F)) : (⟨S1200000, .i32⟩ : BufTy).Contents (Elt F) :=
  shapeCast S1200000 (extractStridedSlice S1x1200000 ![0, 0] ei slices_S2x1200000_S1x1200000_0_0) shapeCasts_S1x1200000_S1200000

/-- The destination node of every edge: row 1 of the edge list, as a vector. -/
def edgeDst (ei : (⟨S2x1200000, .i32⟩ : BufTy).Contents (Elt F)) : (⟨S1200000, .i32⟩ : BufTy).Contents (Elt F) :=
  shapeCast S1200000 (extractStridedSlice S1x1200000 ![1, 0] ei slices_S2x1200000_S1x1200000_1_0) shapeCasts_S1x1200000_S1200000

/-- The row to gather for every edge, as a column: the source node, a negative one counted from the end. -/
def rowIndex (src : (⟨S1200000, .i32⟩ : BufTy).Contents (Elt F)) : (⟨S1200000x1, .i32⟩ : BufTy).Contents (Elt F) :=
  broadcastInDim S1200000x1 ![0] bcast_S1200000_S1200000x1_0
    (select
      (cmpi .slt src ((broadcastInDim S1200000 ![] bcast_S_S1200000 : (⟨S_, .i32⟩ : BufTy).Contents (Elt F) → (⟨S1200000, .i32⟩ : BufTy).Contents (Elt F)) (constantI S_ 32 0#32)))
      (addi src ((broadcastInDim S1200000 ![] bcast_S_S1200000 : (⟨S_, .i32⟩ : BufTy).Contents (Elt F) → (⟨S1200000, .i32⟩ : BufTy).Contents (Elt F)) (constantI S_ 32 100000#32)))
      src : (⟨S1200000, .i32⟩ : BufTy).Contents (Elt F))

/-- The feature row of the source node of every edge. -/
def gatherRows (feat : (⟨S100000x64, .f32⟩ : BufTy).Contents (Elt F)) (src : (⟨S1200000, .i32⟩ : BufTy).Contents (Elt F)) : (⟨S1200000x64, .f32⟩ : BufTy).Contents (Elt F) :=
  Host.gather gather_S100000x64_S1200000x1_S1200000x64_1_0_n_n_0_1_164 feat (rowIndex src)

/-! ## One relation's neighbourhood mean -/

/-- One where the edge's relation is `r`, zero elsewhere. -/
def relMask (r : BitVec 32) (et : (⟨S1200000, .i32⟩ : BufTy).Contents (Elt F)) : (⟨S1200000, .f32⟩ : BufTy).Contents (Elt F) :=
  uitofp .f32
    (cmpi .eq et ((broadcastInDim S1200000 ![] bcast_S_S1200000 : (⟨S_, .i32⟩ : BufTy).Contents (Elt F) → (⟨S1200000, .i32⟩ : BufTy).Contents (Elt F)) (constantI S_ 32 r))
      : (⟨S1200000, .i1⟩ : BufTy).Contents (Elt F))

/-- The destination node of every edge, as a column. -/
def dstIndex (dst : (⟨S1200000, .i32⟩ : BufTy).Contents (Elt F)) : (⟨S1200000x1, .i32⟩ : BufTy).Contents (Elt F) :=
  broadcastInDim S1200000x1 ![0] bcast_S1200000_S1200000x1_0 dst

/-- At every node, the sum of the source rows of its incoming edges of relation `r`. -/
def relSum (r : BitVec 32) (feat : (⟨S100000x64, .f32⟩ : BufTy).Contents (Elt F)) (src dst et : (⟨S1200000, .i32⟩ : BufTy).Contents (Elt F)) : (⟨S100000x64, .f32⟩ : BufTy).Contents (Elt F) :=
  Host.scatterAdd scatter_S100000x64_S1200000x1_S1200000x64_1_0_0_1
    ((broadcastInDim S100000x64 ![] bcast_S_S100000x64 : (⟨S_, .f32⟩ : BufTy).Contents (Elt F) → (⟨S100000x64, .f32⟩ : BufTy).Contents (Elt F)) (constant S_ .f32 0x00000000#32))
    (dstIndex dst)
    (mulf (gatherRows feat src)
      ((broadcastInDim S1200000x64 ![0, 1] bcast_S1200000x1_S1200000x64_0_1 : (⟨S1200000x1, .f32⟩ : BufTy).Contents (Elt F) → (⟨S1200000x64, .f32⟩ : BufTy).Contents (Elt F))
        ((broadcastInDim S1200000x1 ![0] bcast_S1200000_S1200000x1_0 : (⟨S1200000, .f32⟩ : BufTy).Contents (Elt F) → (⟨S1200000x1, .f32⟩ : BufTy).Contents (Elt F)) (relMask r et)))
      : (⟨S1200000x64, .f32⟩ : BufTy).Contents (Elt F))

/-- At every node, the number of its incoming edges of relation `r`. -/
def relCount (r : BitVec 32) (dst et : (⟨S1200000, .i32⟩ : BufTy).Contents (Elt F)) : (⟨S100000, .f32⟩ : BufTy).Contents (Elt F) :=
  Host.scatterAdd scatter_S100000_S1200000x1_S1200000_n_0_0_1
    ((broadcastInDim S100000 ![] bcast_S_S100000 : (⟨S_, .f32⟩ : BufTy).Contents (Elt F) → (⟨S100000, .f32⟩ : BufTy).Contents (Elt F)) (constant S_ .f32 0x00000000#32))
    (dstIndex dst)
    (relMask r et)

/-- The mean of relation `r` over explicit source and destination vectors: the sum divided by the
    larger of the count and one. -/
def aggOf (r : BitVec 32) (feat : (⟨S100000x64, .f32⟩ : BufTy).Contents (Elt F)) (src dst et : (⟨S1200000, .i32⟩ : BufTy).Contents (Elt F)) : (⟨S100000x64, .f32⟩ : BufTy).Contents (Elt F) :=
  Host.divf (relSum r feat src dst et)
    ((broadcastInDim S100000x64 ![0, 1] bcast_S100000x1_S100000x64_0_1 : (⟨S100000x1, .f32⟩ : BufTy).Contents (Elt F) → (⟨S100000x64, .f32⟩ : BufTy).Contents (Elt F))
      ((broadcastInDim S100000x1 ![0] bcast_S100000_S100000x1_0 : (⟨S100000, .f32⟩ : BufTy).Contents (Elt F) → (⟨S100000x1, .f32⟩ : BufTy).Contents (Elt F))
        (maximumf (relCount r dst et)
          ((broadcastInDim S100000 ![] bcast_S_S100000 : (⟨S_, .f32⟩ : BufTy).Contents (Elt F) → (⟨S100000, .f32⟩ : BufTy).Contents (Elt F)) (constant S_ .f32 0x3F800000#32))
          : (⟨S100000, .f32⟩ : BufTy).Contents (Elt F))))

/-- The mean of relation `r` over an edge list. -/
def agg (r : BitVec 32) (feat : (⟨S100000x64, .f32⟩ : BufTy).Contents (Elt F)) (ei : (⟨S2x1200000, .i32⟩ : BufTy).Contents (Elt F)) (et : (⟨S1200000, .i32⟩ : BufTy).Contents (Elt F)) : (⟨S100000x64, .f32⟩ : BufTy).Contents (Elt F) :=
  aggOf r feat (edgeSrc ei) (edgeDst ei) et

/-! ## The operands of the matrix product -/

/-- Rounding an f32 array to bf16, entry by entry. -/
def toBf16 {s : Shape} (x : (⟨s, .f32⟩ : BufTy).Contents (Elt F)) : (⟨s, .bf16⟩ : BufTy).Contents (Elt F) :=
  truncf .bf16 x bitsLt_bf16_f32

/-- The features and the five means side by side: a row of 6 · 64 columns per node. -/
def joinCols (feat a0 a1 a2 a3 a4 : (⟨S100000x64, .f32⟩ : BufTy).Contents (Elt F)) : (⟨S100000x384, .f32⟩ : BufTy).Contents (Elt F) :=
  concatenate S100000x384 1 [⟨S100000x64, feat⟩, ⟨S100000x64, a0⟩, ⟨S100000x64, a1⟩, ⟨S100000x64, a2⟩, ⟨S100000x64, a3⟩, ⟨S100000x64, a4⟩]
    concatenates_S100000x64_S100000x64_S100000x64_S100000x64_S100000x64_S100000x64_S100000x384_d1

/-- The left operand over explicit source and destination vectors. -/
def xcatOf (feat : (⟨S100000x64, .f32⟩ : BufTy).Contents (Elt F)) (src dst et : (⟨S1200000, .i32⟩ : BufTy).Contents (Elt F)) : (⟨S100000x384, .bf16⟩ : BufTy).Contents (Elt F) :=
  toBf16 (joinCols feat (aggOf 0#32 feat src dst et) (aggOf 1#32 feat src dst et) (aggOf 2#32 feat src dst et)
    (aggOf 3#32 feat src dst et) (aggOf 4#32 feat src dst et))

/-- The left operand over an edge list. -/
def xcat (feat : (⟨S100000x64, .f32⟩ : BufTy).Contents (Elt F)) (ei : (⟨S2x1200000, .i32⟩ : BufTy).Contents (Elt F)) (et : (⟨S1200000, .i32⟩ : BufTy).Contents (Elt F)) : (⟨S100000x384, .bf16⟩ : BufTy).Contents (Elt F) :=
  xcatOf feat (edgeSrc ei) (edgeDst ei) et

/-- Weight matrix `r` of the five: slab `r` on the leading axis, as a matrix. -/
def weightSlab (r : ℕ) (h : S5x64x64.Slices ![r, 0, 0] S1x64x64) (W : (⟨S5x64x64, .f32⟩ : BufTy).Contents (Elt F)) : (⟨S64x64, .f32⟩ : BufTy).Contents (Elt F) :=
  shapeCast S64x64 (extractStridedSlice S1x64x64 ![r, 0, 0] W h) shapeCasts_S1x64x64_S64x64

/-- Six square matrices stacked: 6 · 64 rows. -/
def joinRows (root w0 w1 w2 w3 w4 : (⟨S64x64, .f32⟩ : BufTy).Contents (Elt F)) : (⟨S384x64, .f32⟩ : BufTy).Contents (Elt F) :=
  concatenate S384x64 0 [⟨S64x64, root⟩, ⟨S64x64, w0⟩, ⟨S64x64, w1⟩, ⟨S64x64, w2⟩, ⟨S64x64, w3⟩, ⟨S64x64, w4⟩]
    concatenates_S64x64_S64x64_S64x64_S64x64_S64x64_S64x64_S384x64_d0

/-- The right operand: the root matrix on top of the five relation matrices. -/
def wcat (root : (⟨S64x64, .f32⟩ : BufTy).Contents (Elt F)) (W : (⟨S5x64x64, .f32⟩ : BufTy).Contents (Elt F)) : (⟨S384x64, .bf16⟩ : BufTy).Contents (Elt F) :=
  toBf16 (joinRows root (weightSlab 0 slices_S5x64x64_S1x64x64_0_0_0 W) (weightSlab 1 slices_S5x64x64_S1x64x64_1_0_0 W)
    (weightSlab 2 slices_S5x64x64_S1x64x64_2_0_0 W) (weightSlab 3 slices_S5x64x64_S1x64x64_3_0_0 W) (weightSlab 4 slices_S5x64x64_S1x64x64_4_0_0 W))

/-- A bias of 64 entries as a row. -/
def biasRow (b : (⟨S64, .f32⟩ : BufTy).Contents (Elt F)) : (⟨S1x64, .f32⟩ : BufTy).Contents (Elt F) :=
  shapeCast S1x64 b shapeCasts_S64_S1x64

/-- A bias of 8 entries as a row. -/
def biasRow8 (b : (⟨S8, .f32⟩ : BufTy).Contents (Elt F)) : (⟨S1x8, .f32⟩ : BufTy).Contents (Elt F) :=
  shapeCast S1x8 b shapeCasts_S8_S1x8

end Cert.HostSpec

end
-- ==== Proof.KIHost.lean ====
/-
  What each stretch of host operations leaves in the buffers the device regions read, as terms of the buffers the
  stretch starts from.

  Before region 0: the joined features and aggregates, the joined weights and the bias row, from the arguments; the
  source and destination vectors of the edges are also left for the next stretch. Before region 1: the same from the
  first layer's output and those two vectors. Before region 2: the roundings of the second layer's output and of the
  classifier's weights, and its bias row.
-/
import proofs.«179495_j24472723653074_1_alg».proof.Proof.Gen.KernelIdeal.Launch
import proofs.«179495_j24472723653074_1_alg».proof.Proof.HostSpec
import Idealize.ShloMosaic.Lib.StableHlo.Run

set_option maxRecDepth 16384

noncomputable section

namespace Cert.KernelIdeal.HostVals

open Cert.KernelIdeal Cert.KernelIdeal.Gen Cert.HostSpec
open Idealize.ShloMosaic Idealize.ShloMosaic.TcCoe Idealize.ShloMosaic.StableHlo

variable {F : FTy → Type} [FloatOps F]
variable (v : Valuation τ sig (Elt F))

set_option maxHeartbeats 20000000 in
theorem src0 : after hostOps0 v (Proc.devRef .tc main_v1) = edgeSrc (v (Proc.devRef .tc main_arg1)) := by
  after_results_simp <;> rfl
set_option maxHeartbeats 20000000 in
theorem dst0 : after hostOps0 v (Proc.devRef .tc main_v3) = edgeDst (v (Proc.devRef .tc main_arg1)) := by
  after_results_simp <;> rfl
set_option maxHeartbeats 20000000 in
theorem xcat0 : after hostOps0 v (Proc.devRef .tc main_v108)
    = xcat (v (Proc.devRef .tc main_arg0)) (v (Proc.devRef .tc main_arg1)) (v (Proc.devRef .tc main_arg2)) := by
  after_results_simp <;> rfl
set_option maxHeartbeats 20000000 in
theorem wcat0 : after hostOps0 v (Proc.devRef .tc main_v109)
    = wcat (v (Proc.devRef .tc main_arg4)) (v (Proc.devRef .tc main_arg3)) := by
  after_results_simp <;> rfl
set_option maxHeartbeats 20000000 in
theorem bias0 : after hostOps0 v (Proc.devRef .tc main_v110) = biasRow (v (Proc.devRef .tc main_arg5)) := by
  after_results_simp <;> rfl

set_option maxHeartbeats 20000000 in
theorem xcat1 : after hostOps1 v (Proc.devRef .tc main_v216)
    = xcatOf (v (Proc.devRef .tc main_v111)) (v (Proc.devRef .tc main_v1)) (v (Proc.devRef .tc main_v3)) (v (Proc.devRef .tc main_arg2)) := by
  after_results_simp <;> rfl
set_option maxHeartbeats 20000000 in
theorem wcat1 : after hostOps1 v (Proc.devRef .tc main_v217)
    = wcat (v (Proc.devRef .tc main_arg7)) (v (Proc.devRef .tc main_arg6)) := by
  after_results_simp <;> rfl
set_option maxHeartbeats 20000000 in
theorem bias1 : after hostOps1 v (Proc.devRef .tc main_v218) = biasRow (v (Proc.devRef .tc main_arg8)) := by
  after_results_simp <;> rfl
set_option maxHeartbeats 20000000 in
theorem h2_kept1 : after hostOps1 v (Proc.devRef .tc main_v111) = v (Proc.devRef .tc main_v111) := by
  after_results_simp <;> rfl

theorem x2 : after hostOps2 v (Proc.devRef .tc main_v220) = toBf16 (v (Proc.devRef .tc main_v219)) := by
  after_results_simp <;> rfl
theorem w2 : after hostOps2 v (Proc.devRef .tc main_v221) = toBf16 (v (Proc.devRef .tc main_arg9)) := by
  after_results_simp <;> rfl
theorem bias2 : after hostOps2 v (Proc.devRef .tc main_v222) = biasRow8 (v (Proc.devRef .tc main_arg10)) := by
  after_results_simp <;> rfl
theorem h2_kept2 : after hostOps2 v (Proc.devRef .tc main_v219) = v (Proc.devRef .tc main_v219) := by
  after_results_simp <;> rfl

end Cert.KernelIdeal.HostVals

end
-- ==== Proof.Spec.lean ====
/-
  A dense layer as one function of whole arrays, on the extended reals.

  For X : [n, k], W : [k, d] and a bias row b : [1, d], entry (i, j) of X · W + b is the sum over c of
  X (i, c) · W (c, j), plus b (0, j); the rectified layer takes the larger of that and the f32 zero word.
-/
import Idealize.ShloMosaic.Lib.ValueIdx
import Idealize.ShloMosaic.PureOps.Ideal

noncomputable section

namespace Cert.Spec

open Idealize.ShloMosaic Idealize.ShloMosaic.ValueIdx

/-- `X · W + b`: entry (i, j) is the sum over c of X (i, c) · W (c, j), plus b (0, j). -/
def dense {n k d : ℕ} (X : (⟨2, ![n, k]⟩ : Shape).Idx → EReal) (W : (⟨2, ![k, d]⟩ : Shape).Idx → EReal)
    (b : (⟨2, ![1, d]⟩ : Shape).Idx → EReal) : (⟨2, ![n, d]⟩ : Shape).Idx → EReal :=
  fun i => (∑ c : Fin k, X (ix2 (i 0) c) * W (ix2 c (i 1))) + b (ix2 0 (i 1))

/-- The same followed by the positive part: the larger of the entry and the f32 zero word. -/
def denseRelu {n k d : ℕ} (X : (⟨2, ![n, k]⟩ : Shape).Idx → EReal) (W : (⟨2, ![k, d]⟩ : Shape).Idx → EReal)
    (b : (⟨2, ![1, d]⟩ : Shape).Idx → EReal) : (⟨2, ![n, d]⟩ : Shape).Idx → EReal :=
  fun i => max (dense X W b i) (Ideal.ofBits .f32 0x00000000#32)

end Cert.Spec

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Payloads.lean ====
/-
  What each of the three dense-layer bodies writes, as one function of the blocks it loaded, on the extended reals.

  Each body multiplies a [4000, k] block by a [k, d] matrix into a zero accumulator, adds a [1, d] bias row broadcast
  down the rows, and (the first body only) takes the larger of the result and the f32 zero word.  Entry (p, q) is
  therefore the sum over c of X (p, c) · W (c, q), plus b (0, q) — the dense layer of the specification.
-/
import proofs.«179495_j24472723653074_1_alg».proof.Proof.Spec
import proofs.«179495_j24472723653074_1_alg».proof.Proof.LibPlainProduct
import proofs.«179495_j24472723653074_1_alg».proof.Proof.LibRowsProduct
import proofs.«179495_j24472723653074_1_alg».proof.Proof.Gen.KernelIdeal.Skeleton

noncomputable section

namespace Cert.KernelIdeal.Payload

open Idealize.ShloMosaic Idealize.ShloMosaic.ValueIdx Cert.KernelIdeal Cert.KernelIdeal.Gen

/-- The first body: the rectified dense layer of its three blocks. -/
theorem payload0 (v0 : FVec Ideal S4000x384 .bf16) (v2 : FVec Ideal S384x64 .bf16) (v5 : FVec Ideal S1x64 .f32) :
    Gen.k0_pay1 (F := Ideal) v0 v2 v5 = Cert.Spec.denseRelu v0 v2 v5 := by
  funext j
  obtain ⟨p, q, rfl⟩ : ∃ (p : Fin 4000) (q : Fin 64), j = ix2 p q := ⟨j 0, j 1, eq_ix2 j⟩
  unfold Gen.k0_pay1 Cert.Spec.denseRelu Cert.Spec.dense
  simp only [shapeCast_self]
  refine (maximumf_apply _ _ _).trans ?_
  refine congrArg₂ max ?_ rfl
  refine (addf_apply _ _ _).trans ?_
  refine congrArg₂ (· + ·) ?_ ?_
  · exact Cert.PlainProduct.matmul_nn_apply _ none v0 v2 p q
  · exact Cert.RowsProduct.broadcastTo_1n_an_apply v5 _ p q

/-- The second body: the dense layer of its three blocks. -/
theorem payload1 (v0 : FVec Ideal S4000x384 .bf16) (v2 : FVec Ideal S384x64 .bf16) (v5 : FVec Ideal S1x64 .f32) :
    Gen.k1_pay1 (F := Ideal) v0 v2 v5 = Cert.Spec.dense v0 v2 v5 := by
  funext j
  obtain ⟨p, q, rfl⟩ : ∃ (p : Fin 4000) (q : Fin 64), j = ix2 p q := ⟨j 0, j 1, eq_ix2 j⟩
  unfold Gen.k1_pay1 Cert.Spec.dense
  simp only [shapeCast_self]
  refine (addf_apply _ _ _).trans ?_
  refine congrArg₂ (· + ·) ?_ ?_
  · exact Cert.PlainProduct.matmul_nn_apply _ none v0 v2 p q
  · exact Cert.RowsProduct.broadcastTo_1n_an_apply v5 _ p q

/-- The third body: the dense layer of its three blocks, into eight columns. -/
theorem payload2 (v0 : FVec Ideal S4000x64 .bf16) (v2 : FVec Ideal S64x8 .bf16) (v5 : FVec Ideal S1x8 .f32) :
    Gen.k2_pay1 (F := Ideal) v0 v2 v5 = Cert.Spec.dense v0 v2 v5 := by
  funext j
  obtain ⟨p, q, rfl⟩ : ∃ (p : Fin 4000) (q : Fin 8), j = ix2 p q := ⟨j 0, j 1, eq_ix2 j⟩
  unfold Gen.k2_pay1 Cert.Spec.dense
  simp only [shapeCast_self]
  refine (addf_apply _ _ _).trans ?_
  refine congrArg₂ (· + ·) ?_ ?_
  · exact Cert.PlainProduct.matmul_nn_apply _ none v0 v2 p q
  · exact Cert.RowsProduct.broadcastTo_1n_an_apply v5 _ p q

end Cert.KernelIdeal.Payload

end
-- ==== Proof.KIValue0.lean ====
/-
  Region 0: the output array after the region, as one function of the three arrays the region finds.

  Each of the 25 grid points writes back one block of 4000 rows of the output.  What point t writes is the rectified dense layer
  of row block t of the input, the whole weight matrix and the whole bias row, and row 4000 t + r of the layer of the whole
  arrays depends on exactly those; so the block written is block t of the layer of the whole arrays.  The 25 blocks
  cover the output (row r is in block r / 4000), hence the array ends holding the layer of the whole arrays.
-/
import proofs.«179495_j24472723653074_1_alg».proof.Proof.KIRegion0
import proofs.«179495_j24472723653074_1_alg».proof.Proof.Payloads
import Idealize.ShloMosaic.Lib.Pipeline.Value

set_option maxRecDepth 16384

noncomputable section

namespace Cert.KernelIdeal.Value0

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered, on the extended reals
variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-- The windows' block indices at every grid point: the two row-block windows (the input rows and the output rows)
    are at block (t, 0); the weight matrix and the bias row are whole, at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of the rectified dense layer of the three arrays as the region finds them:
    rows 4000 t … 4000 t + 3999 of the input meet the whole weight matrix and the whole bias row. -/
theorem flushed_eq (c : Dev nD) (t : Fin cfg0.N) :
    (Region0.dat V c).flushed 3 t = ((cfg0.win 3).blk t).view.read (Elt Ideal)
      (Cert.Spec.denseRelu (V c main_v108) (V c main_v109) (V c main_v110)) := by
  show (cfg0.win 3).cut (grid0.coords t) ((Region0.dat V c).after 3 t) = _
  rw [Region0.after_3]
  unfold Region0.out
  rw [View.canon_unit_zero zero_offsets]
  simp only [View.ld_unit_zero (S := S4000x384) zero_offsets, View.ld_unit_zero (S := S384x64) zero_offsets,
    View.ld_unit_zero (S := S1x64) zero_offsets]
  rw [Cert.KernelIdeal.Payload.payload0]
  obtain ⟨e00, e01, e10, e11, e20, e21, e30, e31⟩ := block_indices t
  funext j
  show Cert.Spec.denseRelu (Region0.iblk V c 0 t) (Region0.iblk V c 1 t) (Region0.iblk V c 2 t) j
    = Cert.Spec.denseRelu (V c main_v108) (V c main_v109) (V c main_v110) (((cfg0.win 3).blk t).view.emb j)
  unfold Cert.Spec.denseRelu Cert.Spec.dense
  refine congrArg₂ max (congrArg₂ (· + ·) (Finset.sum_congr rfl fun k _ => congrArg₂ (· * ·) ?_ ?_) ?_) rfl
  · -- the input's entry (row j₀ of block t, column k) is the array's entry (row 4000 t + j₀, column k)
    show V c main_v108 (((cfg0.win 0).blk t).view.emb _) = V c main_v108 _
    refine congrArg _ ?_
    funext a; apply Fin.ext
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 384 + 1 * k.val = k.val; omega
  · -- the weight block is the whole matrix
    show V c main_v109 (((cfg0.win 1).blk t).view.emb _) = V c main_v109 _
    refine congrArg _ ?_
    funext a; apply Fin.ext
    match a with
    | ⟨0, _⟩ => show win0_1.index t (0 : Fin 2) * 384 + 1 * k.val = k.val; omega
    | ⟨1, _⟩ => show win0_1.index t (1 : Fin 2) * 64 + 1 * (j 1).val = win0_3.index t (1 : Fin 2) * 64 + 1 * (j 1).val; omega
  · -- the bias block is the whole row
    show V c main_v110 (((cfg0.win 2).blk t).view.emb _) = V c main_v110 _
    refine congrArg _ ?_
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
theorem mem_block (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v111).slice (win0_3.rect t)).set ↔ _
  rw [View.set_slice_whole, Rect.mem_set_unit]
  exact Iff.rfl

/-- Every index of the output array is in some point's block: row r is in the block of point r / 4000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_3 _, ?_⟩
  rw [mem_block]
  obtain ⟨-, -, -, -, -, -, e30, e31⟩ := block_indices ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e30]; show (i 0).val / 4000 * 4000 ≤ (i 0).val ∧ (i 0).val < (i 0).val / 4000 * 4000 + 4000; omega
  | ⟨1, _⟩ =>
    show win0_3.index _ (1 : Fin 2) * 64 ≤ (i 1).val ∧ (i 1).val < win0_3.index _ (1 : Fin 2) * 64 + 64
    rw [e31]; omega

/-- The output array after the region: the rectified dense layer of the three arrays as the region finds them. -/
theorem final (c : Dev nD) :
    (Region0.dat (F := Ideal) V c).arrAt 3 cfg0.N = Cert.Spec.denseRelu (V c main_v108) (V c main_v109) (V c main_v110) :=
  (Region0.dat V c).arrAt_eq_of_cover 3 (Cert.Spec.denseRelu (V c main_v108) (V c main_v109) (V c main_v110))
    (fun t _ => flushed_eq V c t) (covered)

end Cert.KernelIdeal.Value0

end
-- ==== Proof.KIValue1.lean ====
/-
  Region 1: the output array after the region, as one function of the three arrays the region finds.

  Each of the 25 grid points writes back one block of 4000 rows of the output.  What point t writes is the dense layer
  of row block t of the input, the whole weight matrix and the whole bias row, and row 4000 t + r of the layer of the whole
  arrays depends on exactly those; so the block written is block t of the layer of the whole arrays.  The 25 blocks
  cover the output (row r is in block r / 4000), hence the array ends holding the layer of the whole arrays.
-/
import proofs.«179495_j24472723653074_1_alg».proof.Proof.KIRegion1
import proofs.«179495_j24472723653074_1_alg».proof.Proof.Payloads
import Idealize.ShloMosaic.Lib.Pipeline.Value

set_option maxRecDepth 16384

noncomputable section

namespace Cert.KernelIdeal.Value1

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered, on the extended reals
variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-- The windows' block indices at every grid point: the two row-block windows (the input rows and the output rows)
    are at block (t, 0); the weight matrix and the bias row are whole, at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of the dense layer of the three arrays as the region finds them:
    rows 4000 t … 4000 t + 3999 of the input meet the whole weight matrix and the whole bias row. -/
theorem flushed_eq (c : Dev nD) (t : Fin cfg1.N) :
    (Region1.dat V c).flushed 3 t = ((cfg1.win 3).blk t).view.read (Elt Ideal)
      (Cert.Spec.dense (V c main_v216) (V c main_v217) (V c main_v218)) := by
  show (cfg1.win 3).cut (grid1.coords t) ((Region1.dat V c).after 3 t) = _
  rw [Region1.after_3]
  unfold Region1.out
  rw [View.canon_unit_zero zero_offsets]
  simp only [View.ld_unit_zero (S := S4000x384) zero_offsets, View.ld_unit_zero (S := S384x64) zero_offsets,
    View.ld_unit_zero (S := S1x64) zero_offsets]
  rw [Cert.KernelIdeal.Payload.payload1]
  obtain ⟨e00, e01, e10, e11, e20, e21, e30, e31⟩ := block_indices t
  funext j
  show Cert.Spec.dense (Region1.iblk V c 0 t) (Region1.iblk V c 1 t) (Region1.iblk V c 2 t) j
    = Cert.Spec.dense (V c main_v216) (V c main_v217) (V c main_v218) (((cfg1.win 3).blk t).view.emb j)
  unfold Cert.Spec.dense
  refine congrArg₂ (· + ·) (Finset.sum_congr rfl fun k _ => congrArg₂ (· * ·) ?_ ?_) ?_
  · -- the input's entry (row j₀ of block t, column k) is the array's entry (row 4000 t + j₀, column k)
    show V c main_v216 (((cfg1.win 0).blk t).view.emb _) = V c main_v216 _
    refine congrArg _ ?_
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 384 + 1 * k.val = k.val; omega
  · -- the weight block is the whole matrix
    show V c main_v217 (((cfg1.win 1).blk t).view.emb _) = V c main_v217 _
    refine congrArg _ ?_
    funext a; apply Fin.ext
    match a with
    | ⟨0, _⟩ => show win1_1.index t (0 : Fin 2) * 384 + 1 * k.val = k.val; omega
    | ⟨1, _⟩ => show win1_1.index t (1 : Fin 2) * 64 + 1 * (j 1).val = win1_3.index t (1 : Fin 2) * 64 + 1 * (j 1).val; omega
  · -- the bias block is the whole row
    show V c main_v218 (((cfg1.win 2).blk t).view.emb _) = V c main_v218 _
    refine congrArg _ ?_
    funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega

/-- An index of the output array is in point `t`'s block iff each coordinate is in the block's range on its axis. -/
theorem mem_block (t : Fin cfg1.N) (i : S100000x64.Idx) :
    i ∈ ((cfg1.win 3).blk t).view.set ↔ ∀ a : Fin 2, win1_3.index t a * S4000x64.size a ≤ (i a).val
      ∧ (i a).val < win1_3.index t a * S4000x64.size a + S4000x64.size a := by
  show i ∈ ((View.whole main_v219).slice (win1_3.rect t)).set ↔ _
  rw [View.set_slice_whole, Rect.mem_set_unit]
  exact Iff.rfl

/-- Every index of the output array is in some point's block: row r is in the block of point r / 4000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_3 _, ?_⟩
  rw [mem_block]
  obtain ⟨-, -, -, -, -, -, e30, e31⟩ := block_indices ⟨(i 0).val / 4000, by rw [hN]; omega⟩
  intro a
  match a with
  | ⟨0, _⟩ =>
    show win1_3.index _ (0 : Fin 2) * 4000 ≤ (i 0).val ∧ (i 0).val < win1_3.index _ (0 : Fin 2) * 4000 + 4000
    rw [e30]; show (i 0).val / 4000 * 4000 ≤ (i 0).val ∧ (i 0).val < (i 0).val / 4000 * 4000 + 4000; omega
  | ⟨1, _⟩ =>
    show win1_3.index _ (1 : Fin 2) * 64 ≤ (i 1).val ∧ (i 1).val < win1_3.index _ (1 : Fin 2) * 64 + 64
    rw [e31]; omega

/-- The output array after the region: the dense layer of the three arrays as the region finds them. -/
theorem final (c : Dev nD) :
    (Region1.dat (F := Ideal) V c).arrAt 3 cfg1.N = Cert.Spec.dense (V c main_v216) (V c main_v217) (V c main_v218) :=
  (Region1.dat V c).arrAt_eq_of_cover 3 (Cert.Spec.dense (V c main_v216) (V c main_v217) (V c main_v218))
    (fun t _ => flushed_eq V c t) (covered)

end Cert.KernelIdeal.Value1

end
-- ==== Proof.KIValue2.lean ====
/-
  Region 2: the output array after the region, as one function of the three arrays the region finds.

  Each of the 25 grid points writes back one block of 4000 rows of the output.  What point t writes is the dense layer
  of row block t of the input, the whole weight matrix and the whole bias row, and row 4000 t + r of the layer of the whole
  arrays depends on exactly those; so the block written is block t of the layer of the whole arrays.  The 25 blocks
  cover the output (row r is in block r / 4000), hence the array ends holding the layer of the whole arrays.
-/
import proofs.«179495_j24472723653074_1_alg».proof.Proof.KIRegion2
import proofs.«179495_j24472723653074_1_alg».proof.Proof.Payloads
import Idealize.ShloMosaic.Lib.Pipeline.Value

set_option maxRecDepth 16384

noncomputable section

namespace Cert.KernelIdeal.Value2

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered, on the extended reals
variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-- The windows' block indices at every grid point: the two row-block windows (the input rows and the output rows)
    are at block (t, 0); the weight matrix and the bias row are whole, at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of the dense layer of the three arrays as the region finds them:
    rows 4000 t … 4000 t + 3999 of the input meet the whole weight matrix and the whole bias row. -/
theorem flushed_eq (c : Dev nD) (t : Fin cfg2.N) :
    (Region2.dat V c).flushed 3 t = ((cfg2.win 3).blk t).view.read (Elt Ideal)
      (Cert.Spec.dense (V c main_v220) (V c main_v221) (V c main_v222)) := by
  show (cfg2.win 3).cut (grid2.coords t) ((Region2.dat V c).after 3 t) = _
  rw [Region2.after_3]
  unfold Region2.out
  rw [View.canon_unit_zero zero_offsets]
  simp only [View.ld_unit_zero (S := S4000x64) zero_offsets, View.ld_unit_zero (S := S64x8) zero_offsets,
    View.ld_unit_zero (S := S1x8) zero_offsets]
  rw [Cert.KernelIdeal.Payload.payload2]
  obtain ⟨e00, e01, e10, e11, e20, e21, e30, e31⟩ := block_indices t
  funext j
  show Cert.Spec.dense (Region2.iblk V c 0 t) (Region2.iblk V c 1 t) (Region2.iblk V c 2 t) j
    = Cert.Spec.dense (V c main_v220) (V c main_v221) (V c main_v222) (((cfg2.win 3).blk t).view.emb j)
  unfold Cert.Spec.dense
  refine congrArg₂ (· + ·) (Finset.sum_congr rfl fun k _ => congrArg₂ (· * ·) ?_ ?_) ?_
  · -- the input's entry (row j₀ of block t, column k) is the array's entry (row 4000 t + j₀, column k)
    show V c main_v220 (((cfg2.win 0).blk t).view.emb _) = V c main_v220 _
    refine congrArg _ ?_
    funext a; apply Fin.ext
    match a with
    | ⟨0, _⟩ => show win2_0.index t (0 : Fin 2) * 4000 + 1 * (j 0).val = win2_3.index t (0 : Fin 2) * 4000 + 1 * (j 0).val; omega
    | ⟨1, _⟩ => show win2_0.index t (1 : Fin 2) * 64 + 1 * k.val = k.val; omega
  · -- the weight block is the whole matrix
    show V c main_v221 (((cfg2.win 1).blk t).view.emb _) = V c main_v221 _
    refine congrArg _ ?_
    funext a; apply Fin.ext
    match a with
    | ⟨0, _⟩ => show win2_1.index t (0 : Fin 2) * 64 + 1 * k.val = k.val; omega
    | ⟨1, _⟩ => show win2_1.index t (1 : Fin 2) * 8 + 1 * (j 1).val = win2_3.index t (1 : Fin 2) * 8 + 1 * (j 1).val; omega
  · -- the bias block is the whole row
    show V c main_v222 (((cfg2.win 2).blk t).view.emb _) = V c main_v222 _
    refine congrArg _ ?_
    funext a; apply Fin.ext
    match a with
    | ⟨0, _⟩ => show win2_2.index t (0 : Fin 2) * 1 + 1 * 0 = 0; omega
    | ⟨1, _⟩ => show win2_2.index t (1 : Fin 2) * 8 + 1 * (j 1).val = win2_3.index t (1 : Fin 2) * 8 + 1 * (j 1).val; omega

/-- An index of the output array is in point `t`'s block iff each coordinate is in the block's range on its axis. -/
theorem mem_block (t : Fin cfg2.N) (i : S100000x8.Idx) :
    i ∈ ((cfg2.win 3).blk t).view.set ↔ ∀ a : Fin 2, win2_3.index t a * S4000x8.size a ≤ (i a).val
      ∧ (i a).val < win2_3.index t a * S4000x8.size a + S4000x8.size a := by
  show i ∈ ((View.whole main_v223).slice (win2_3.rect t)).set ↔ _
  rw [View.set_slice_whole, Rect.mem_set_unit]
  exact Iff.rfl

/-- Every index of the output array is in some point's block: row r is in the block of point r / 4000. -/
theorem covered (i : S100000x8.Idx) :
    ∃ t : Fin cfg2.N, (cfg2.win 3).flush t = true ∧ i ∈ ((cfg2.win 3).blk t).view.set := by
  have hi0 : (i 0).val < 100000 := (i 0).isLt
  have hi1 : (i 1).val < 8 := (i 1).isLt
  have hN : cfg2.N = 25 := N_2
  refine ⟨⟨(i 0).val / 4000, by rw [hN]; omega⟩, flush2_3 _, ?_⟩
  rw [mem_block]
  obtain ⟨-, -, -, -, -, -, e30, e31⟩ := block_indices ⟨(i 0).val / 4000, by rw [hN]; omega⟩
  intro a
  match a with
  | ⟨0, _⟩ =>
    show win2_3.index _ (0 : Fin 2) * 4000 ≤ (i 0).val ∧ (i 0).val < win2_3.index _ (0 : Fin 2) * 4000 + 4000
    rw [e30]; show (i 0).val / 4000 * 4000 ≤ (i 0).val ∧ (i 0).val < (i 0).val / 4000 * 4000 + 4000; omega
  | ⟨1, _⟩ =>
    show win2_3.index _ (1 : Fin 2) * 8 ≤ (i 1).val ∧ (i 1).val < win2_3.index _ (1 : Fin 2) * 8 + 8
    rw [e31]; omega

/-- The output array after the region: the dense layer of the three arrays as the region finds them. -/
theorem final (c : Dev nD) :
    (Region2.dat (F := Ideal) V c).arrAt 3 cfg2.N = Cert.Spec.dense (V c main_v220) (V c main_v221) (V c main_v222) :=
  (Region2.dat V c).arrAt_eq_of_cover 3 (Cert.Spec.dense (V c main_v220) (V c main_v221) (V c main_v222))
    (fun t _ => flushed_eq V c t) (covered)

end Cert.KernelIdeal.Value2

end
-- ==== Proof.Layers.lean ====
/-
  The kernel program's three results as functions of the eleven argument arrays, on the extended reals.

  Each graph layer is one dense layer over the joined features and aggregates; the first is rectified; the classifier
  is a dense layer over the second layer's output.
-/
import proofs.«179495_j24472723653074_1_alg».proof.Proof.HostSpec
import proofs.«179495_j24472723653074_1_alg».proof.Proof.Spec

noncomputable section

namespace Cert.Layers

open Idealize.ShloMosaic Cert.KernelIdeal Cert.HostSpec

variable [Facts₀]

/-- The first layer: the rectified dense layer over the features joined with their five aggregates. -/
def h1 (x0 : (⟨S100000x64, .f32⟩ : BufTy).Contents (Elt Ideal)) (x1 : (⟨S2x1200000, .i32⟩ : BufTy).Contents (Elt Ideal))
    (x2 : (⟨S1200000, .i32⟩ : BufTy).Contents (Elt Ideal)) (x3 : (⟨S5x64x64, .f32⟩ : BufTy).Contents (Elt Ideal))
    (x4 : (⟨S64x64, .f32⟩ : BufTy).Contents (Elt Ideal)) (x5 : (⟨S64, .f32⟩ : BufTy).Contents (Elt Ideal)) :
    (⟨S100000x64, .f32⟩ : BufTy).Contents (Elt Ideal) :=
  Cert.Spec.denseRelu (xcat x0 x1 x2) (wcat x4 x3) (biasRow x5)

/-- The second layer: the dense layer over the first layer's output joined with its five aggregates. -/
def h2 (x0 : (⟨S100000x64, .f32⟩ : BufTy).Contents (Elt Ideal)) (x1 : (⟨S2x1200000, .i32⟩ : BufTy).Contents (Elt Ideal))
    (x2 : (⟨S1200000, .i32⟩ : BufTy).Contents (Elt Ideal)) (x3 : (⟨S5x64x64, .f32⟩ : BufTy).Contents (Elt Ideal))
    (x4 : (⟨S64x64, .f32⟩ : BufTy).Contents (Elt Ideal)) (x5 : (⟨S64, .f32⟩ : BufTy).Contents (Elt Ideal))
    (x6 : (⟨S5x64x64, .f32⟩ : BufTy).Contents (Elt Ideal)) (x7 : (⟨S64x64, .f32⟩ : BufTy).Contents (Elt Ideal))
    (x8 : (⟨S64, .f32⟩ : BufTy).Contents (Elt Ideal)) : (⟨S100000x64, .f32⟩ : BufTy).Contents (Elt Ideal) :=
  Cert.Spec.dense (xcat (h1 x0 x1 x2 x3 x4 x5) x1 x2) (wcat x7 x6) (biasRow x8)

/-- The classifier: the dense layer over the second layer's output. -/
def logits (x0 : (⟨S100000x64, .f32⟩ : BufTy).Contents (Elt Ideal)) (x1 : (⟨S2x1200000, .i32⟩ : BufTy).Contents (Elt Ideal))
    (x2 : (⟨S1200000, .i32⟩ : BufTy).Contents (Elt Ideal)) (x3 : (⟨S5x64x64, .f32⟩ : BufTy).Contents (Elt Ideal))
    (x4 : (⟨S64x64, .f32⟩ : BufTy).Contents (Elt Ideal)) (x5 : (⟨S64, .f32⟩ : BufTy).Contents (Elt Ideal))
    (x6 : (⟨S5x64x64, .f32⟩ : BufTy).Contents (Elt Ideal)) (x7 : (⟨S64x64, .f32⟩ : BufTy).Contents (Elt Ideal))
    (x8 : (⟨S64, .f32⟩ : BufTy).Contents (Elt Ideal)) (x9 : (⟨S64x8, .f32⟩ : BufTy).Contents (Elt Ideal))
    (x10 : (⟨S8, .f32⟩ : BufTy).Contents (Elt Ideal)) : (⟨S100000x8, .f32⟩ : BufTy).Contents (Elt Ideal) :=
  Cert.Spec.dense (toBf16 (h2 x0 x1 x2 x3 x4 x5 x6 x7 x8)) (toBf16 x9) (biasRow8 x10)

end Cert.Layers

end
-- ==== Proof.KIResults.lean ====
/-
  What the two result buffers hold after the run, as functions of the argument arrays as launched.

  The fold of the buffer contents is read backwards. The classifier's output is the dense layer of the roundings of
  the second layer's output and of the classifier's weights; the second layer's output is the dense layer of what
  the second host stretch joined from the first layer's output; the first layer's output is the rectified dense layer
  of what the first host stretch joined from the arguments. The edge vectors written by the first stretch and the
  arguments pass through the regions untouched.
-/
import proofs.«179495_j24472723653074_1_alg».proof.Proof.KIKept
import proofs.«179495_j24472723653074_1_alg».proof.Proof.KIHost
import proofs.«179495_j24472723653074_1_alg».proof.Proof.KIValue0
import proofs.«179495_j24472723653074_1_alg».proof.Proof.KIValue1
import proofs.«179495_j24472723653074_1_alg».proof.Proof.KIValue2
import proofs.«179495_j24472723653074_1_alg».proof.Proof.Layers

set_option maxRecDepth 16384

noncomputable section

namespace Cert.KernelIdeal.Results

open Cert.KernelIdeal Cert.KernelIdeal.Gen Cert.KernelIdeal.Run Cert.HostSpec Cert.KernelIdeal.HostVals
open Idealize.ShloMosaic Idealize.ShloMosaic.TcCoe
open Idealize.SL Idealize.SL.Sem

variable (m : (ℓ : Loc nD τ sig) → Buf (Elt Ideal) ℓ) (ρ : Dev nD → PrngReg) (c : Dev nD)

/-! ## Region 0's entry and exit -/

theorem in0_x : V1 m ρ c main_v108
    = xcat (m ((c : Thread nD τ).loc main_arg0)) (m ((c : Thread nD τ).loc main_arg1)) (m ((c : Thread nD τ).loc main_arg2)) :=
  xcat0 (W0 m ρ c)
theorem in0_w : V1 m ρ c main_v109 = wcat (m ((c : Thread nD τ).loc main_arg4)) (m ((c : Thread nD τ).loc main_arg3)) :=
  wcat0 (W0 m ρ c)
theorem in0_b : V1 m ρ c main_v110 = biasRow (m ((c : Thread nD τ).loc main_arg5)) :=
  bias0 (W0 m ρ c)

/-- The first layer's output after region 0. -/
theorem out0 : W2 m ρ c (Proc.devRef .tc main_v111)
    = Cert.Layers.h1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 3).trans ?_
  rw [Cert.KernelIdeal.Value0.final (V1 m ρ) c, in0_x, in0_w, in0_b]
  rfl

/-- The edge vectors pass through region 0. -/
theorem src2 : W2 m ρ c (Proc.devRef .tc main_v1) = edgeSrc (m ((c : Thread nD τ).loc main_arg1)) :=
  (W2_of_ne m ρ c main_v1 (by decide)).trans (src0 (W0 m ρ c))
theorem dst2 : W2 m ρ c (Proc.devRef .tc main_v3) = edgeDst (m ((c : Thread nD τ).loc main_arg1)) :=
  (W2_of_ne m ρ c main_v3 (by decide)).trans (dst0 (W0 m ρ c))

/-! ## Region 1's entry and exit -/

theorem in1_x : V3 m ρ c main_v216
    = xcat (Cert.Layers.h1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
      (m ((c : Thread nD τ).loc main_arg1)) (m ((c : Thread nD τ).loc main_arg2)) := by
  refine (xcat1 (W2 m ρ c)).trans ?_
  rw [out0, src2, dst2, W2_arg m ρ c main_arg2 (by decide)]
  rfl
theorem in1_w : V3 m ρ c main_v217 = wcat (m ((c : Thread nD τ).loc main_arg7)) (m ((c : Thread nD τ).loc main_arg6)) := by
  refine (wcat1 (W2 m ρ c)).trans ?_
  rw [W2_arg m ρ c main_arg7 (by decide), W2_arg m ρ c main_arg6 (by decide)]
theorem in1_b : V3 m ρ c main_v218 = biasRow (m ((c : Thread nD τ).loc main_arg8)) := by
  refine (bias1 (W2 m ρ c)).trans ?_
  rw [W2_arg m ρ c main_arg8 (by decide)]

/-- The second layer's output after region 1. -/
theorem out1 : W4 m ρ c (Proc.devRef .tc main_v219)
    = Cert.Layers.h2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 3).trans ?_
  rw [Cert.KernelIdeal.Value1.final (V3 m ρ) c, in1_x, in1_w, in1_b]
  rfl

/-! ## Region 2's entry and exit -/

theorem in2_x : V5 m ρ c main_v220 = toBf16 (W4 m ρ c (Proc.devRef .tc main_v219)) := x2 (W4 m ρ c)
theorem in2_w : V5 m ρ c main_v221 = toBf16 (m ((c : Thread nD τ).loc main_arg9)) := by
  refine (w2 (W4 m ρ c)).trans ?_
  rw [W4_arg m ρ c main_arg9 (by decide)]
theorem in2_b : V5 m ρ c main_v222 = biasRow8 (m ((c : Thread nD τ).loc main_arg10)) := by
  refine (bias2 (W4 m ρ c)).trans ?_
  rw [W4_arg m ρ c main_arg10 (by decide)]

/-- The classifier's output after region 2. -/
theorem out2 : W6 m ρ c (Proc.devRef .tc main_v223)
    = Cert.Layers.logits (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (W6_arr m ρ c 3).trans ?_
  rw [Cert.KernelIdeal.Value2.final (V5 m ρ) c, in2_x, in2_w, in2_b, out1]
  rfl

/-- The second layer's output is still there at the end. -/
theorem out1_end : W6 m ρ c (Proc.devRef .tc main_v219)
    = Cert.Layers.h2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (W6_of_ne m ρ c main_v219 (by decide)).trans ((h2_kept2 (W4 m ρ c)).trans (out1 m ρ c))

/-! ## The run with its results named -/

/-- Every weakly fair execution terminates without a fault; the two results are the layer functions of the arguments
    as launched, and the arguments are unchanged. -/
theorem run : θ_run defs (onTc (τ := τ) (main (F := Ideal))) ⟨m, fun _ => 0, ρ⟩ (fun r => ∀ c : Dev nD,
      r.2.mem ((c.tc : Thread nD τ).loc main_v219)
        = Cert.Layers.h2 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_v223)
        = Cert.Layers.logits (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have key : ∀ b : Ref sig .tc, b ∈ argRefs → ¬ (Proc.devRef .tc b : DevRef τ sig).isScoped →
        r.2.mem ((c.tc : Thread nD τ).loc b) = m ((c.tc : Thread nD τ).loc b) :=
      fun b hb hs => (h c _ (mem_uc b hs)).trans (W6_arg m ρ c b hb)
    ⟨(h c _ (mem_uc main_v219 (by decide))).trans (out1_end m ρ c),
      (h c _ (mem_uc main_v223 (by decide))).trans (out2 m ρ c),
      key main_arg0 (by decide) (by decide), key main_arg1 (by decide) (by decide), key main_arg2 (by decide) (by decide),
      key main_arg3 (by decide) (by decide), key main_arg4 (by decide) (by decide), key main_arg5 (by decide) (by decide),
      key main_arg6 (by decide) (by decide), key main_arg7 (by decide) (by decide), key main_arg8 (by decide) (by decide),
      key main_arg9 (by decide) (by decide), key main_arg10 (by decide) (by decide)⟩) (run_main m ρ)

end Cert.KernelIdeal.Results

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibBlockSum.lean ====
/-
  Sums over `L · B` indices taken as `B` runs of `L` consecutive terms. The runs' sums add up to the whole sum, and an
  accumulator that starts from zero and adds one run at each step holds, after the last run, the whole sum. Both are
  stated for a sequence on the naturals (sums over `Finset.range`) and for a function on `Fin N`, `N = L · B` (sums
  over `Fin`), and once more at `8192 = 8 · 1024` over the extended reals. Only the laws of a commutative additive
  monoid are used, so no finiteness hypothesis is needed.
-/
import Mathlib.Algebra.BigOperators.Fin
import Mathlib.Algebra.BigOperators.Intervals
import Mathlib.Data.EReal.Basic

noncomputable section

open scoped BigOperators

open Finset

namespace Cert.BlockSum

section General

variable {M : Type*} [AddCommMonoid M]

/-- The `k`-th block of length `L` of a sequence on the naturals. -/
def blkN (L : ℕ) (g : ℕ → M) (k : ℕ) : M := ∑ j ∈ range L, g (L * k + j)

/-- The accumulator after the blocks `0, …, n`, started from zero. -/
def accN (L : ℕ) (g : ℕ → M) : ℕ → M
  | 0 => 0 + blkN L g 0
  | n + 1 => accN L g n + blkN L g (n + 1)

theorem accN_eq (L : ℕ) (g : ℕ → M) (n : ℕ) : accN L g n = ∑ t ∈ range (L * (n + 1)), g t := by
  induction n with
  | zero => simp [accN, blkN]
  | succ n ih => rw [accN, ih, blkN, Nat.mul_succ L (n + 1), Finset.sum_range_add]

/-- A function on `Fin N` extended by zero to the naturals. -/
def ext {N : ℕ} (f : Fin N → M) : ℕ → M := fun t => if h : t < N then f ⟨t, h⟩ else 0

theorem ext_val {N : ℕ} (f : Fin N → M) (t : ℕ) (h : t < N) : ext f t = f ⟨t, h⟩ := by
  simp [ext, h]

theorem sum_ext {N : ℕ} (f : Fin N → M) : ∑ j : Fin N, f j = ∑ t ∈ range N, ext f t := by
  rw [← Fin.sum_univ_eq_sum_range]
  exact Finset.sum_congr rfl fun j _ => (ext_val f j.val j.isLt).symm

theorem lt_of_blk {L B N : ℕ} (h : L * B = N) {k : ℕ} (hk : k < B) (j : Fin L) : L * k + j.val < N :=
  calc L * k + j.val < L * k + L := Nat.add_lt_add_left j.isLt _
    _ = L * (k + 1) := (Nat.mul_succ L k).symm
    _ ≤ L * B := Nat.mul_le_mul_left L hk
    _ = N := h

/-- The `k`-th block of length `L` of a function on `Fin N`, `N = L · B`. -/
def blkG {L B N : ℕ} (h : L * B = N) (f : Fin N → M) (k : ℕ) (hk : k < B) : M :=
  ∑ j : Fin L, f ⟨L * k + j.val, lt_of_blk h hk j⟩

/-- The accumulator over the blocks `0, …, n` of a function on `Fin N`, started from zero. -/
def accG {L B N : ℕ} (h : L * B = N) (f : Fin N → M) : (n : ℕ) → n < B → M
  | 0, hn => 0 + blkG h f 0 hn
  | n + 1, hn => accG h f n (Nat.lt_of_succ_lt hn) + blkG h f (n + 1) hn

theorem blkG_eq {L B N : ℕ} (h : L * B = N) (f : Fin N → M) (k : ℕ) (hk : k < B) :
    blkG h f k hk = blkN L (ext f) k := by
  unfold blkG blkN
  rw [← Fin.sum_univ_eq_sum_range (fun j => ext f (L * k + j)) L]
  exact Finset.sum_congr rfl fun j _ => (ext_val f _ (lt_of_blk h hk j)).symm

theorem accG_eq {L B N : ℕ} (h : L * B = N) (f : Fin N → M) :
    ∀ (n : ℕ) (hn : n < B), accG h f n hn = accN L (ext f) n
  | 0, hn => by rw [accG, accN, blkG_eq]
  | n + 1, hn => by rw [accG, accN, blkG_eq, accG_eq h f n]

/-- After the last block the accumulator holds the whole sum. -/
theorem accG_last {L B N : ℕ} (h : L * B = N) (f : Fin N → M) (n : ℕ) (hn : n < B) (hlast : n + 1 = B) :
    accG h f n hn = ∑ j : Fin N, f j := by
  rw [accG_eq, accN_eq, sum_ext, hlast, h]

/-- The blocks' sums add up to the whole sum (range form). -/
theorem sum_range_blkN (L : ℕ) (g : ℕ → M) (B : ℕ) :
    ∑ s ∈ range B, blkN L g s = ∑ t ∈ range (L * B), g t := by
  induction B with
  | zero => simp
  | succ B ih => rw [Finset.sum_range_succ, ih, blkN, Nat.mul_succ, Finset.sum_range_add]

/-- The blocks' sums add up to the whole sum. -/
theorem sum_blkG {L B N : ℕ} (h : L * B = N) (f : Fin N → M) :
    ∑ s : Fin B, blkG h f s.val s.isLt = ∑ j : Fin N, f j := by
  have hN : ∑ t ∈ range N, ext f t = ∑ t ∈ range (L * B), ext f t := by rw [h]
  rw [sum_ext f, hN, ← sum_range_blkN, ← Fin.sum_univ_eq_sum_range]
  exact Finset.sum_congr rfl fun s _ => blkG_eq h f s.val s.isLt

/-- The same for any sequence `G` on the naturals that agrees with the blocks' sums below `B` (its values from `B` on
    are not used). -/
theorem sum_range_of_blkG {L B N : ℕ} (h : L * B = N) (f : Fin N → M) (G : ℕ → M)
    (hG : ∀ (s : ℕ) (hs : s < B), G s = blkG h f s hs) : ∑ s ∈ range B, G s = ∑ j : Fin N, f j := by
  rw [← sum_blkG h f, ← Fin.sum_univ_eq_sum_range]
  exact Finset.sum_congr rfl fun s _ => hG s.val s.isLt

end General

/-! ### 8192 = 8 blocks of 1024, extended reals -/

/-- The `k`-th block of 1024 consecutive terms. -/
def blk (f : Fin 8192 → EReal) (k : ℕ) (hk : k < 8) : EReal :=
  ∑ j : Fin 1024, f ⟨1024 * k + j.val, by omega⟩

/-- The accumulator over the blocks `0, …, n`, started from zero. -/
def acc (f : Fin 8192 → EReal) : (n : ℕ) → n < 8 → EReal
  | 0, hn => 0 + blk f 0 hn
  | n + 1, hn => acc f n (Nat.lt_of_succ_lt hn) + blk f (n + 1) hn

theorem blk_eq_blkG (f : Fin 8192 → EReal) (k : ℕ) (hk : k < 8) :
    blk f k hk = blkG (L := 1024) (B := 8) (by norm_num) f k hk := rfl

theorem acc_eq_accG (f : Fin 8192 → EReal) :
    ∀ (n : ℕ) (hn : n < 8), acc f n hn = accG (L := 1024) (B := 8) (by norm_num) f n hn
  | 0, hn => by rw [acc, accG, blk_eq_blkG]
  | n + 1, hn => by rw [acc, accG, blk_eq_blkG, acc_eq_accG f n]

/-- After the eighth block the accumulator holds the sum over all 8192 terms. -/
theorem acc_last (f : Fin 8192 → EReal) : acc f 7 (by decide) = ∑ j : Fin 8192, f j := by
  rw [acc_eq_accG]
  exact accG_last _ f 7 _ rfl

/-- The eight blocks' sums add up to the whole sum. -/
theorem sum_blk (f : Fin 8192 → EReal) : ∑ s : Fin 8, blk f s.val s.isLt = ∑ j : Fin 8192, f j :=
  sum_blkG (L := 1024) (B := 8) (by norm_num) f

/-- Zero plus eight consecutive addends, the `s`-th being the `s`-th block's sum, is the whole sum (the values of `G`
    from 8 on are not used). -/
theorem zero_add_sum_range (f : Fin 8192 → EReal) (G : ℕ → EReal)
    (hG : ∀ (s : ℕ) (hs : s < 8), G s = blk f s hs) :
    0 + ∑ s ∈ range (7 + 1), G s = ∑ j : Fin 8192, f j := by
  rw [zero_add]
  exact sum_range_of_blkG (L := 1024) (B := 8) (by norm_num) f G hG

end Cert.BlockSum

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.Law.lean ====
/-
  One graph-convolution layer as a single matrix product, on the extended reals.

  Six `[n, 64]` arrays placed side by side form an `[n, 384]` array, six `[64, d]` arrays stacked form a `[384, d]`
  array, and the product of the two, entry by entry, is a sum over 384 shared indices.  That sum is six runs of 64, and
  run `s` is the entry of the product of the `s`-th pair.  Adding a bias row to the whole is therefore the same as
  adding it to the first product and then adding the other five products one at a time: only the order of a sum of
  seven extended reals changes, so no finiteness is needed.  Rounding to bf16 is the identity on the extended reals.
-/
import Idealize.ShloMosaic.Lib.Pipeline.Value
import Idealize.ShloMosaic.Lib.ValueIdx
import Idealize.ShloMosaic.PureOps.Ideal.Laws
import proofs.«179495_j24472723653074_1_alg».proof.Proof.Spec
import proofs.«179495_j24472723653074_1_alg».proof.Proof.LibHostProduct
import proofs.«179495_j24472723653074_1_alg».proof.Proof.LibBlockSum
import proofs.«179495_j24472723653074_1_alg».proof.Proof.LibHostBroadcast

noncomputable section

namespace Cert.Law

open Idealize.ShloMosaic Idealize.ShloMosaic.ValueIdx
open scoped BigOperators

variable {α : Type}

/-- Six arrays of one shape as the list a join takes. -/
abbrev six (S : Shape) (P : Fin 6 → S.Idx → α) : List ((s : Shape) × (s.Idx → α)) :=
  [⟨S, P 0⟩, ⟨S, P 1⟩, ⟨S, P 2⟩, ⟨S, P 3⟩, ⟨S, P 4⟩, ⟨S, P 5⟩]

/-- Six `[n, 64]` arrays side by side, read at column `64 s + j`: array `s` at column `j`. -/
theorem joinCols_apply {n : ℕ} (P : Fin 6 → (⟨2, ![n, 64]⟩ : Shape).Idx → α)
    (h : Shape.Concatenates ((six ⟨2, ![n, 64]⟩ P).map (·.1)) ⟨2, ![n, 384]⟩ 1)
    (a : Fin n) (s : Fin 6) (j : Fin 64) (hlt : 64 * s.val + j.val < 384) :
    concatenate ⟨2, ![n, 384]⟩ 1 (six ⟨2, ![n, 64]⟩ P) h (ix2 a ⟨64 * s.val + j.val, hlt⟩) = P s (ix2 a j) := by
  have hoff : ∀ b : Fin 2, b.cast (rfl : (⟨2, ![n, 64]⟩ : Shape).rank = (⟨2, ![n, 384]⟩ : Shape).rank) ≠ (1 : Fin 2) →
      ((ix2 a j : (⟨2, ![n, 64]⟩ : Shape).Idx) b).val
        = ((ix2 a (⟨64 * s.val + j.val, hlt⟩ : Fin 384) : (⟨2, ![n, 384]⟩ : Shape).Idx) (b.cast rfl)).val := by
    intro b hb
    match b with
    | ⟨0, _⟩ => rfl
    | ⟨1, _⟩ => exact absurd rfl hb
  match s with
  | ⟨0, _⟩ => exact concatenate_apply_piece 1 _ h _ 0 (show 0 < 6 by decide) _ (P 0) rfl rfl 0 rfl (ix2 a j) hoff rfl
  | ⟨1, _⟩ => exact concatenate_apply_piece 1 _ h _ 1 (show 1 < 6 by decide) _ (P 1) rfl rfl 64 rfl (ix2 a j) hoff rfl
  | ⟨2, _⟩ => exact concatenate_apply_piece 1 _ h _ 2 (show 2 < 6 by decide) _ (P 2) rfl rfl 128 rfl (ix2 a j) hoff rfl
  | ⟨3, _⟩ => exact concatenate_apply_piece 1 _ h _ 3 (show 3 < 6 by decide) _ (P 3) rfl rfl 192 rfl (ix2 a j) hoff rfl
  | ⟨4, _⟩ => exact concatenate_apply_piece 1 _ h _ 4 (show 4 < 6 by decide) _ (P 4) rfl rfl 256 rfl (ix2 a j) hoff rfl
  | ⟨5, _⟩ => exact concatenate_apply_piece 1 _ h _ 5 (show 5 < 6 by decide) _ (P 5) rfl rfl 320 rfl (ix2 a j) hoff rfl

/-- Six `[64, d]` arrays stacked, read at row `64 s + j`: array `s` at row `j`. -/
theorem joinRows_apply {d : ℕ} (Q : Fin 6 → (⟨2, ![64, d]⟩ : Shape).Idx → α)
    (h : Shape.Concatenates ((six ⟨2, ![64, d]⟩ Q).map (·.1)) ⟨2, ![384, d]⟩ 0)
    (s : Fin 6) (j : Fin 64) (c : Fin d) (hlt : 64 * s.val + j.val < 384) :
    concatenate ⟨2, ![384, d]⟩ 0 (six ⟨2, ![64, d]⟩ Q) h (ix2 ⟨64 * s.val + j.val, hlt⟩ c) = Q s (ix2 j c) := by
  have hoff : ∀ b : Fin 2, b.cast (rfl : (⟨2, ![64, d]⟩ : Shape).rank = (⟨2, ![384, d]⟩ : Shape).rank) ≠ (0 : Fin 2) →
      ((ix2 j c : (⟨2, ![64, d]⟩ : Shape).Idx) b).val
        = ((ix2 (⟨64 * s.val + j.val, hlt⟩ : Fin 384) c : (⟨2, ![384, d]⟩ : Shape).Idx) (b.cast rfl)).val := by
    intro b hb
    match b with
    | ⟨0, _⟩ => exact absurd rfl hb
    | ⟨1, _⟩ => rfl
  match s with
  | ⟨0, _⟩ => exact concatenate_apply_piece 0 _ h _ 0 (show 0 < 6 by decide) _ (Q 0) rfl rfl 0 rfl (ix2 j c) hoff rfl
  | ⟨1, _⟩ => exact concatenate_apply_piece 0 _ h _ 1 (show 1 < 6 by decide) _ (Q 1) rfl rfl 64 rfl (ix2 j c) hoff rfl
  | ⟨2, _⟩ => exact concatenate_apply_piece 0 _ h _ 2 (show 2 < 6 by decide) _ (Q 2) rfl rfl 128 rfl (ix2 j c) hoff rfl
  | ⟨3, _⟩ => exact concatenate_apply_piece 0 _ h _ 3 (show 3 < 6 by decide) _ (Q 3) rfl rfl 192 rfl (ix2 j c) hoff rfl
  | ⟨4, _⟩ => exact concatenate_apply_piece 0 _ h _ 4 (show 4 < 6 by decide) _ (Q 4) rfl rfl 256 rfl (ix2 j c) hoff rfl
  | ⟨5, _⟩ => exact concatenate_apply_piece 0 _ h _ 5 (show 5 < 6 by decide) _ (Q 5) rfl rfl 320 rfl (ix2 j c) hoff rfl

/-- A sum over 384 indices as six runs of 64. -/
theorem sum_six_runs {M : Type*} [AddCommMonoid M] (f : Fin 384 → M) :
    ∑ t : Fin 384, f t = ∑ s : Fin 6, ∑ j : Fin 64, f ⟨64 * s.val + j.val, by have := s.isLt; have := j.isLt; omega⟩ :=
  (Cert.BlockSum.sum_blkG (L := 64) (B := 6) (by norm_num) f).symm

/-- A vector of `d` entries as a one-row matrix, read at `(0, c)`: entry `c`. -/
theorem rowCast_apply {d : ℕ} (b : (⟨1, ![d]⟩ : Shape).Idx → α) (h : (⟨1, ![d]⟩ : Shape).ShapeCasts ⟨2, ![1, d]⟩) (c : Fin d) :
    shapeCast ⟨2, ![1, d]⟩ b h (ix2 (0 : Fin 1) c) = b (ix1 c) := by
  refine shapeCast_apply b h _ _ ?_
  rw [Shape.rowMajor_val_one, Shape.rowMajor_val_two]
  show c.val = 0 * d + c.val
  omega

/-- A dense layer read at `(a, c)`. -/
theorem dense_ix2 {n k d : ℕ} (X : (⟨2, ![n, k]⟩ : Shape).Idx → EReal) (W : (⟨2, ![k, d]⟩ : Shape).Idx → EReal)
    (b : (⟨2, ![1, d]⟩ : Shape).Idx → EReal) (a : Fin n) (c : Fin d) :
    Cert.Spec.dense X W b (ix2 a c) = (∑ t : Fin k, X (ix2 a t) * W (ix2 t c)) + b (ix2 (0 : Fin 1) c) := rfl

/-- **One layer as a single product.** Six `[n, 64]` arrays side by side times six `[64, d]` arrays stacked, plus a bias
    row, is the first product plus the bias, then the other five products added one at a time: the sum over the 384
    shared indices is six runs of 64, and the rest is the order of a sum of seven extended reals. -/
theorem layer_vec {n d : ℕ} (w : DotDims.WF ⟨2, ![n, 64]⟩ ⟨2, ![64, d]⟩ ⟨2, ![n, d]⟩ [1] [0] [0] [1] [] [])
    (P : Fin 6 → FVec Ideal ⟨2, ![n, 64]⟩ .f32) (Q : Fin 6 → FVec Ideal ⟨2, ![64, d]⟩ .f32) (b : FVec Ideal ⟨1, ![d]⟩ .f32)
    (hc : Shape.Concatenates ((six ⟨2, ![n, 64]⟩ P).map (·.1)) ⟨2, ![n, 384]⟩ 1)
    (hc' : Shape.Concatenates ((six ⟨2, ![64, d]⟩ Q).map (·.1)) ⟨2, ![384, d]⟩ 0)
    (hb : FTy.bits .bf16 < FTy.bits .f32) (hs : (⟨1, ![d]⟩ : Shape).ShapeCasts ⟨2, ![1, d]⟩)
    (h1 : (⟨1, ![d]⟩ : Shape).BroadcastsInDim ⟨2, ![1, d]⟩ ![1])
    (h2 : (⟨2, ![1, d]⟩ : Shape).BroadcastsInDim ⟨2, ![n, d]⟩ ![0, 1]) :
    Cert.Spec.dense
        (truncf .bf16 (concatenate ⟨2, ![n, 384]⟩ 1 (six ⟨2, ![n, 64]⟩ P) hc : FVec Ideal ⟨2, ![n, 384]⟩ .f32) hb : FVec Ideal ⟨2, ![n, 384]⟩ .bf16)
        (truncf .bf16 (concatenate ⟨2, ![384, d]⟩ 0 (six ⟨2, ![64, d]⟩ Q) hc' : FVec Ideal ⟨2, ![384, d]⟩ .f32) hb : FVec Ideal ⟨2, ![384, d]⟩ .bf16)
        (shapeCast ⟨2, ![1, d]⟩ b hs)
      = addf (addf (addf (addf (addf (addf
          (Host.dotGeneral (⟨[1], [0], [0], [1], [], [], w⟩ : DotDims _ _ _) none (P 0) (Q 0))
          (broadcastInDim ⟨2, ![n, d]⟩ ![0, 1] h2 (broadcastInDim ⟨2, ![1, d]⟩ ![1] h1 b)))
          (Host.dotGeneral (⟨[1], [0], [0], [1], [], [], w⟩ : DotDims _ _ _) none (P 1) (Q 1)))
          (Host.dotGeneral (⟨[1], [0], [0], [1], [], [], w⟩ : DotDims _ _ _) none (P 2) (Q 2)))
          (Host.dotGeneral (⟨[1], [0], [0], [1], [], [], w⟩ : DotDims _ _ _) none (P 3) (Q 3)))
          (Host.dotGeneral (⟨[1], [0], [0], [1], [], [], w⟩ : DotDims _ _ _) none (P 4) (Q 4)))
          (Host.dotGeneral (⟨[1], [0], [0], [1], [], [], w⟩ : DotDims _ _ _) none (P 5) (Q 5)) := by
  funext i
  obtain ⟨a, c, rfl⟩ : ∃ (a : Fin n) (c : Fin d), i = ix2 a c := ⟨i 0, i 1, eq_ix2 i⟩
  rw [dense_ix2, rowCast_apply, sum_six_runs]
  have hrun : ∀ s : Fin 6,
      (∑ j : Fin 64,
        (truncf .bf16 (concatenate ⟨2, ![n, 384]⟩ 1 (six ⟨2, ![n, 64]⟩ P) hc : FVec Ideal ⟨2, ![n, 384]⟩ .f32) hb : FVec Ideal ⟨2, ![n, 384]⟩ .bf16)
            (ix2 a ⟨64 * s.val + j.val, by have := s.isLt; have := j.isLt; omega⟩)
          * (truncf .bf16 (concatenate ⟨2, ![384, d]⟩ 0 (six ⟨2, ![64, d]⟩ Q) hc' : FVec Ideal ⟨2, ![384, d]⟩ .f32) hb : FVec Ideal ⟨2, ![384, d]⟩ .bf16)
            (ix2 ⟨64 * s.val + j.val, by have := s.isLt; have := j.isLt; omega⟩ c))
        = Host.dotGeneral (⟨[1], [0], [0], [1], [], [], w⟩ : DotDims _ _ _) none (P s) (Q s) (ix2 a c) := by
    intro s
    rw [Cert.HostProduct.dotGeneral_nn_apply]
    refine Finset.sum_congr rfl fun j _ => ?_
    rw [truncf_apply, truncf_apply, joinCols_apply, joinRows_apply]
  rw [Finset.sum_congr rfl (fun s _ => hrun s), Fin.sum_univ_six]
  simp only [addf_apply]
  rw [Cert.HostBroadcast.row_apply]
  generalize Host.dotGeneral (⟨[1], [0], [0], [1], [], [], w⟩ : DotDims _ _ _) none (P 0) (Q 0) (ix2 a c) = d0
  generalize Host.dotGeneral (⟨[1], [0], [0], [1], [], [], w⟩ : DotDims _ _ _) none (P 1) (Q 1) (ix2 a c) = d1
  generalize Host.dotGeneral (⟨[1], [0], [0], [1], [], [], w⟩ : DotDims _ _ _) none (P 2) (Q 2) (ix2 a c) = d2
  generalize Host.dotGeneral (⟨[1], [0], [0], [1], [], [], w⟩ : DotDims _ _ _) none (P 3) (Q 3) (ix2 a c) = d3
  generalize Host.dotGeneral (⟨[1], [0], [0], [1], [], [], w⟩ : DotDims _ _ _) none (P 4) (Q 4) (ix2 a c) = d4
  generalize Host.dotGeneral (⟨[1], [0], [0], [1], [], [], w⟩ : DotDims _ _ _) none (P 5) (Q 5) (ix2 a c) = d5
  generalize b (ix1 c) = β
  ac_rfl

/-- The same with the twelve arrays named: the form the two programs print. -/
theorem layer {n d : ℕ} (w : DotDims.WF ⟨2, ![n, 64]⟩ ⟨2, ![64, d]⟩ ⟨2, ![n, d]⟩ [1] [0] [0] [1] [] [])
    (x a0 a1 a2 a3 a4 : FVec Ideal ⟨2, ![n, 64]⟩ .f32) (r w0 w1 w2 w3 w4 : FVec Ideal ⟨2, ![64, d]⟩ .f32) (b : FVec Ideal ⟨1, ![d]⟩ .f32)
    (hc : Shape.Concatenates (([⟨⟨2, ![n, 64]⟩, x⟩, ⟨⟨2, ![n, 64]⟩, a0⟩, ⟨⟨2, ![n, 64]⟩, a1⟩, ⟨⟨2, ![n, 64]⟩, a2⟩, ⟨⟨2, ![n, 64]⟩, a3⟩,
      ⟨⟨2, ![n, 64]⟩, a4⟩] : List ((s : Shape) × (s.Idx → Ideal .f32))).map (·.1)) ⟨2, ![n, 384]⟩ 1)
    (hc' : Shape.Concatenates (([⟨⟨2, ![64, d]⟩, r⟩, ⟨⟨2, ![64, d]⟩, w0⟩, ⟨⟨2, ![64, d]⟩, w1⟩, ⟨⟨2, ![64, d]⟩, w2⟩, ⟨⟨2, ![64, d]⟩, w3⟩,
      ⟨⟨2, ![64, d]⟩, w4⟩] : List ((s : Shape) × (s.Idx → Ideal .f32))).map (·.1)) ⟨2, ![384, d]⟩ 0)
    (hb : FTy.bits .bf16 < FTy.bits .f32) (hs : (⟨1, ![d]⟩ : Shape).ShapeCasts ⟨2, ![1, d]⟩)
    (h1 : (⟨1, ![d]⟩ : Shape).BroadcastsInDim ⟨2, ![1, d]⟩ ![1])
    (h2 : (⟨2, ![1, d]⟩ : Shape).BroadcastsInDim ⟨2, ![n, d]⟩ ![0, 1]) :
    Cert.Spec.dense
        (truncf .bf16 (concatenate ⟨2, ![n, 384]⟩ 1 [⟨⟨2, ![n, 64]⟩, x⟩, ⟨⟨2, ![n, 64]⟩, a0⟩, ⟨⟨2, ![n, 64]⟩, a1⟩, ⟨⟨2, ![n, 64]⟩, a2⟩,
          ⟨⟨2, ![n, 64]⟩, a3⟩, ⟨⟨2, ![n, 64]⟩, a4⟩] hc : FVec Ideal ⟨2, ![n, 384]⟩ .f32) hb : FVec Ideal ⟨2, ![n, 384]⟩ .bf16)
        (truncf .bf16 (concatenate ⟨2, ![384, d]⟩ 0 [⟨⟨2, ![64, d]⟩, r⟩, ⟨⟨2, ![64, d]⟩, w0⟩, ⟨⟨2, ![64, d]⟩, w1⟩, ⟨⟨2, ![64, d]⟩, w2⟩,
          ⟨⟨2, ![64, d]⟩, w3⟩, ⟨⟨2, ![64, d]⟩, w4⟩] hc' : FVec Ideal ⟨2, ![384, d]⟩ .f32) hb : FVec Ideal ⟨2, ![384, d]⟩ .bf16)
        (shapeCast ⟨2, ![1, d]⟩ b hs)
      = addf (addf (addf (addf (addf (addf
          (Host.dotGeneral (⟨[1], [0], [0], [1], [], [], w⟩ : DotDims _ _ _) none x r)
          (broadcastInDim ⟨2, ![n, d]⟩ ![0, 1] h2 (broadcastInDim ⟨2, ![1, d]⟩ ![1] h1 b)))
          (Host.dotGeneral (⟨[1], [0], [0], [1], [], [], w⟩ : DotDims _ _ _) none a0 w0))
          (Host.dotGeneral (⟨[1], [0], [0], [1], [], [], w⟩ : DotDims _ _ _) none a1 w1))
          (Host.dotGeneral (⟨[1], [0], [0], [1], [], [], w⟩ : DotDims _ _ _) none a2 w2))
          (Host.dotGeneral (⟨[1], [0], [0], [1], [], [], w⟩ : DotDims _ _ _) none a3 w3))
          (Host.dotGeneral (⟨[1], [0], [0], [1], [], [], w⟩ : DotDims _ _ _) none a4 w4) :=
  layer_vec w ![x, a0, a1, a2, a3, a4] ![r, w0, w1, w2, w3, w4] b hc hc' hb hs h1 h2

/-- The rectified layer is the layer followed by the entrywise larger of it and the zero array. -/
theorem denseRelu_eq {n k d : ℕ} (X : (⟨2, ![n, k]⟩ : Shape).Idx → EReal) (W : (⟨2, ![k, d]⟩ : Shape).Idx → EReal)
    (b : (⟨2, ![1, d]⟩ : Shape).Idx → EReal) (h0 : (⟨0, ![]⟩ : Shape).BroadcastsInDim ⟨2, ![n, d]⟩ ![]) :
    Cert.Spec.denseRelu X W b
      = (maximumf (Cert.Spec.dense X W b : FVec Ideal ⟨2, ![n, d]⟩ .f32)
          (broadcastInDim ⟨2, ![n, d]⟩ ![] h0 (constant ⟨0, ![]⟩ .f32 0x00000000#32)) : FVec Ideal ⟨2, ![n, d]⟩ .f32) := by
  funext i
  rfl

end Cert.Law

end
-- ==== Proof.ClassifierLaw.lean ====
/-
  The dense layer of the specification against the host's spelling of the same layer, on the extended reals.

  The host computes X · W with its own matrix product (no accumulator), lays the bias vector as a one-row matrix and
  repeats it down the rows, and adds.  The specification's dense layer takes the operands rounded to bf16 and the bias as
  a row.  On the extended reals a rounding is the identity, so both are, at (a, c), the sum over t of X (a, t) · W (t, c)
  plus b (c).
-/
import proofs.«179495_j24472723653074_1_alg».proof.Proof.Spec
import proofs.«179495_j24472723653074_1_alg».proof.Proof.LibHostProduct
import proofs.«179495_j24472723653074_1_alg».proof.Proof.LibHostBroadcast
import Idealize.ShloMosaic.Lib.Pipeline.Value
import Idealize.ShloMosaic.Lib.ValueIdx
import Idealize.ShloMosaic.PureOps.Ideal.Laws

noncomputable section

namespace Cert.ClassifierLaw

open Idealize.ShloMosaic Idealize.ShloMosaic.ValueIdx

/-- The dense layer of the rounded operands and the bias as a row is the host's product plus the host's two broadcasts
    of the bias. -/
theorem dense_eq_dot_add {n k d : ℕ}
    (w : DotDims.WF ⟨2, ![n, k]⟩ ⟨2, ![k, d]⟩ ⟨2, ![n, d]⟩ [1] [0] [0] [1] [] [])
    (X : FVec Ideal ⟨2, ![n, k]⟩ .f32) (W : FVec Ideal ⟨2, ![k, d]⟩ .f32) (b : FVec Ideal ⟨1, ![d]⟩ .f32)
    (hb : FTy.bits .bf16 < FTy.bits .f32) (hs : (⟨1, ![d]⟩ : Shape).ShapeCasts ⟨2, ![1, d]⟩)
    (h1 : (⟨1, ![d]⟩ : Shape).BroadcastsInDim ⟨2, ![1, d]⟩ ![1])
    (h2 : (⟨2, ![1, d]⟩ : Shape).BroadcastsInDim ⟨2, ![n, d]⟩ ![0, 1]) :
    Cert.Spec.dense (truncf .bf16 X hb : FVec Ideal ⟨2, ![n, k]⟩ .bf16) (truncf .bf16 W hb : FVec Ideal ⟨2, ![k, d]⟩ .bf16)
        (shapeCast ⟨2, ![1, d]⟩ b hs)
      = addf (Host.dotGeneral (⟨[1], [0], [0], [1], [], [], w⟩ : DotDims _ _ _) none X W)
          (broadcastInDim ⟨2, ![n, d]⟩ ![0, 1] h2 (broadcastInDim ⟨2, ![1, d]⟩ ![1] h1 b)) := by
  funext i
  obtain ⟨a, c, rfl⟩ : ∃ (a : Fin n) (c : Fin d), i = ix2 a c := ⟨i 0, i 1, eq_ix2 i⟩
  show (∑ t : Fin k, X (ix2 a t) * W (ix2 t c)) + shapeCast ⟨2, ![1, d]⟩ b hs (ix2 (0 : Fin 1) c)
    = Host.dotGeneral (⟨[1], [0], [0], [1], [], [], w⟩ : DotDims _ _ _) none X W (ix2 a c)
      + broadcastInDim ⟨2, ![n, d]⟩ ![0, 1] h2 (broadcastInDim ⟨2, ![1, d]⟩ ![1] h1 b) (ix2 a c)
  rw [Cert.HostProduct.dotGeneral_nn_apply w none X W a c, Cert.HostBroadcast.row_apply b h1 h2 a c]
  refine congrArg _ ?_
  exact shapeCast_apply b hs _ (ix1 c) (by
    rw [Shape.rowMajor_val_one, Shape.rowMajor_val_two]; show c.val = 0 * d + c.val; omega)

end Cert.ClassifierLaw

end
-- ==== Proof.RefSpec.lean ====
/-
  The reference program read as a composition of layers.

  The reference computes each graph-convolution layer as the product of the node features with the root matrix plus
  the bias laid over every row, to which the five products of a per-relation neighbourhood mean with its weight matrix
  are added one at a time; the first layer is rectified, and the classifier is a product with the class matrix plus
  its bias.  Its stage-by-stage values are these forms by unfolding definitions: the operations and their order are
  the same, and each neighbourhood mean is the same chain of operations on the same arrays as on the kernel program's
  host side.  On the extended reals the single product over the joined operands equals the layer form.
-/
import proofs.«179495_j24472723653074_1_alg».proof.Proof.HostSpec
import proofs.«179495_j24472723653074_1_alg».proof.Proof.Spec
import proofs.«179495_j24472723653074_1_alg».proof.Proof.Law
import proofs.«179495_j24472723653074_1_alg».proof.Proof.Gen.KernelIdeal
import proofs.«179495_j24472723653074_1_alg».proof.Proof.Gen.ReferenceIdeal.Read

noncomputable section

namespace Cert.RefSpec

open Idealize.ShloMosaic Cert.KernelIdeal Cert.HostSpec

variable {F : FTy → Type} [FloatOps F]

/-- One layer in the reference's form, over named arrays: the product of the features with the root matrix plus the
    bias laid over every row, then the five products of a neighbourhood mean with its matrix, added one at a time. -/
def refLayer (x a0 a1 a2 a3 a4 : (⟨S100000x64, .f32⟩ : BufTy).Contents (Elt F)) (r w0 w1 w2 w3 w4 : (⟨S64x64, .f32⟩ : BufTy).Contents (Elt F)) (b : (⟨S64, .f32⟩ : BufTy).Contents (Elt F)) : (⟨S100000x64, .f32⟩ : BufTy).Contents (Elt F) :=
  addf (addf (addf (addf (addf (addf
    (Host.dotGeneral Cert.ReferenceIdeal.dot_S100000x64_S64x64_S100000x64_1_0_0_1_n_n none x r)
    (broadcastInDim S100000x64 ![0, 1] Cert.ReferenceIdeal.Gen.bcast_S1x64_S100000x64_0_1 (broadcastInDim S1x64 ![1] Cert.ReferenceIdeal.Gen.bcast_S64_S1x64_1 b)))
    (Host.dotGeneral Cert.ReferenceIdeal.dot_S100000x64_S64x64_S100000x64_1_0_0_1_n_n none a0 w0))
    (Host.dotGeneral Cert.ReferenceIdeal.dot_S100000x64_S64x64_S100000x64_1_0_0_1_n_n none a1 w1))
    (Host.dotGeneral Cert.ReferenceIdeal.dot_S100000x64_S64x64_S100000x64_1_0_0_1_n_n none a2 w2))
    (Host.dotGeneral Cert.ReferenceIdeal.dot_S100000x64_S64x64_S100000x64_1_0_0_1_n_n none a3 w3))
    (Host.dotGeneral Cert.ReferenceIdeal.dot_S100000x64_S64x64_S100000x64_1_0_0_1_n_n none a4 w4)

/-- The zero array the rectifier compares with. -/
def zeros : (⟨S100000x64, .f32⟩ : BufTy).Contents (Elt F) :=
  broadcastInDim S100000x64 ![] Cert.ReferenceIdeal.Gen.bcast_S_S100000x64 (constant S_ .f32 0x00000000#32)

/-- On the extended reals, the single product over the joined operands is the reference's form of the layer. -/
theorem dense_eq_refLayer (x : (⟨S100000x64, .f32⟩ : BufTy).Contents (Elt Ideal)) (ei : (⟨S2x1200000, .i32⟩ : BufTy).Contents (Elt Ideal))
    (et : (⟨S1200000, .i32⟩ : BufTy).Contents (Elt Ideal)) (r : (⟨S64x64, .f32⟩ : BufTy).Contents (Elt Ideal)) (W : (⟨S5x64x64, .f32⟩ : BufTy).Contents (Elt Ideal)) (b : (⟨S64, .f32⟩ : BufTy).Contents (Elt Ideal)) :
    Cert.Spec.dense (xcat x ei et) (wcat r W) (biasRow b)
      = refLayer x (agg 0#32 x ei et) (agg 1#32 x ei et) (agg 2#32 x ei et) (agg 3#32 x ei et) (agg 4#32 x ei et)
          r (weightSlab 0 Facts₀.slices_S5x64x64_S1x64x64_0_0_0 W) (weightSlab 1 Facts₀.slices_S5x64x64_S1x64x64_1_0_0 W)
          (weightSlab 2 Facts₀.slices_S5x64x64_S1x64x64_2_0_0 W) (weightSlab 3 Facts₀.slices_S5x64x64_S1x64x64_3_0_0 W)
          (weightSlab 4 Facts₀.slices_S5x64x64_S1x64x64_4_0_0 W) b :=
  Cert.Law.layer (n := 100000) (d := 64) Cert.ReferenceIdeal.Gen.dot_S100000x64_S64x64_S100000x64_1_0_0_1_n_n_wf
    x (agg 0#32 x ei et) (agg 1#32 x ei et) (agg 2#32 x ei et) (agg 3#32 x ei et) (agg 4#32 x ei et)
    r (weightSlab 0 Facts₀.slices_S5x64x64_S1x64x64_0_0_0 W) (weightSlab 1 Facts₀.slices_S5x64x64_S1x64x64_1_0_0 W)
    (weightSlab 2 Facts₀.slices_S5x64x64_S1x64x64_2_0_0 W) (weightSlab 3 Facts₀.slices_S5x64x64_S1x64x64_3_0_0 W)
    (weightSlab 4 Facts₀.slices_S5x64x64_S1x64x64_4_0_0 W) b
    Facts₀.concatenates_S100000x64_S100000x64_S100000x64_S100000x64_S100000x64_S100000x64_S100000x384_d1
    Facts₀.concatenates_S64x64_S64x64_S64x64_S64x64_S64x64_S64x64_S384x64_d0
    Facts₀.bitsLt_bf16_f32 Facts₀.shapeCasts_S64_S1x64 Cert.ReferenceIdeal.Gen.bcast_S64_S1x64_1 Cert.ReferenceIdeal.Gen.bcast_S1x64_S100000x64_0_1

set_option maxHeartbeats 400000 in
/-- The reference's first layer before the rectifier is the layer form over the features, their five means, the root
    matrix, the five slabs and the bias: the same operations in the same order. -/
theorem v119_eq (x0 : (⟨S100000x64, .f32⟩ : BufTy).Contents (Elt F)) (x1 : (⟨S2x1200000, .i32⟩ : BufTy).Contents (Elt F)) (x2 : (⟨S1200000, .i32⟩ : BufTy).Contents (Elt F)) (x3 : (⟨S5x64x64, .f32⟩ : BufTy).Contents (Elt F)) (x4 : (⟨S64x64, .f32⟩ : BufTy).Contents (Elt F)) (x5 : (⟨S64, .f32⟩ : BufTy).Contents (Elt F)) :
    Cert.ReferenceIdeal.Read.val_main_v119 x0 x1 x2 x3 x4 x5 = refLayer x0 (agg 0#32 x0 x1 x2) (agg 1#32 x0 x1 x2) (agg 2#32 x0 x1 x2) (agg 3#32 x0 x1 x2) (agg 4#32 x0 x1 x2) x4 (weightSlab 0 Facts₀.slices_S5x64x64_S1x64x64_0_0_0 x3) (weightSlab 1 Facts₀.slices_S5x64x64_S1x64x64_1_0_0 x3) (weightSlab 2 Facts₀.slices_S5x64x64_S1x64x64_2_0_0 x3) (weightSlab 3 Facts₀.slices_S5x64x64_S1x64x64_3_0_0 x3) (weightSlab 4 Facts₀.slices_S5x64x64_S1x64x64_4_0_0 x3) x5 := rfl

set_option maxHeartbeats 400000 in
/-- The reference's first layer is the rectified layer form. -/
theorem v120_eq (x0 : (⟨S100000x64, .f32⟩ : BufTy).Contents (Elt F)) (x1 : (⟨S2x1200000, .i32⟩ : BufTy).Contents (Elt F)) (x2 : (⟨S1200000, .i32⟩ : BufTy).Contents (Elt F)) (x3 : (⟨S5x64x64, .f32⟩ : BufTy).Contents (Elt F)) (x4 : (⟨S64x64, .f32⟩ : BufTy).Contents (Elt F)) (x5 : (⟨S64, .f32⟩ : BufTy).Contents (Elt F)) :
    Cert.ReferenceIdeal.Read.val_main_v120 x0 x1 x2 x3 x4 x5 = maximumf (refLayer x0 (agg 0#32 x0 x1 x2) (agg 1#32 x0 x1 x2) (agg 2#32 x0 x1 x2) (agg 3#32 x0 x1 x2) (agg 4#32 x0 x1 x2) x4 (weightSlab 0 Facts₀.slices_S5x64x64_S1x64x64_0_0_0 x3) (weightSlab 1 Facts₀.slices_S5x64x64_S1x64x64_1_0_0 x3) (weightSlab 2 Facts₀.slices_S5x64x64_S1x64x64_2_0_0 x3) (weightSlab 3 Facts₀.slices_S5x64x64_S1x64x64_3_0_0 x3) (weightSlab 4 Facts₀.slices_S5x64x64_S1x64x64_4_0_0 x3) x5) zeros := rfl

set_option maxHeartbeats 400000 in
/-- The reference's second layer is the layer form over the first layer's output. -/
theorem v236_eq (x0 : (⟨S100000x64, .f32⟩ : BufTy).Contents (Elt F)) (x1 : (⟨S2x1200000, .i32⟩ : BufTy).Contents (Elt F)) (x2 : (⟨S1200000, .i32⟩ : BufTy).Contents (Elt F)) (x3 : (⟨S5x64x64, .f32⟩ : BufTy).Contents (Elt F)) (x4 : (⟨S64x64, .f32⟩ : BufTy).Contents (Elt F)) (x5 : (⟨S64, .f32⟩ : BufTy).Contents (Elt F)) (x6 : (⟨S5x64x64, .f32⟩ : BufTy).Contents (Elt F)) (x7 : (⟨S64x64, .f32⟩ : BufTy).Contents (Elt F)) (x8 : (⟨S64, .f32⟩ : BufTy).Contents (Elt F)) :
    Cert.ReferenceIdeal.Read.val_main_v236 x0 x1 x2 x3 x4 x5 x6 x7 x8
      = refLayer (Cert.ReferenceIdeal.Read.val_main_v120 x0 x1 x2 x3 x4 x5) (agg 0#32 (Cert.ReferenceIdeal.Read.val_main_v120 x0 x1 x2 x3 x4 x5) x1 x2) (agg 1#32 (Cert.ReferenceIdeal.Read.val_main_v120 x0 x1 x2 x3 x4 x5) x1 x2) (agg 2#32 (Cert.ReferenceIdeal.Read.val_main_v120 x0 x1 x2 x3 x4 x5) x1 x2) (agg 3#32 (Cert.ReferenceIdeal.Read.val_main_v120 x0 x1 x2 x3 x4 x5) x1 x2) (agg 4#32 (Cert.ReferenceIdeal.Read.val_main_v120 x0 x1 x2 x3 x4 x5) x1 x2) x7 (weightSlab 0 Facts₀.slices_S5x64x64_S1x64x64_0_0_0 x6) (weightSlab 1 Facts₀.slices_S5x64x64_S1x64x64_1_0_0 x6) (weightSlab 2 Facts₀.slices_S5x64x64_S1x64x64_2_0_0 x6) (weightSlab 3 Facts₀.slices_S5x64x64_S1x64x64_3_0_0 x6) (weightSlab 4 Facts₀.slices_S5x64x64_S1x64x64_4_0_0 x6) x8 := rfl

set_option maxHeartbeats 400000 in
/-- The reference's classifier: the product with the class matrix plus the bias laid over every row. -/
theorem v240_eq (x0 : (⟨S100000x64, .f32⟩ : BufTy).Contents (Elt F)) (x1 : (⟨S2x1200000, .i32⟩ : BufTy).Contents (Elt F)) (x2 : (⟨S1200000, .i32⟩ : BufTy).Contents (Elt F)) (x3 : (⟨S5x64x64, .f32⟩ : BufTy).Contents (Elt F)) (x4 : (⟨S64x64, .f32⟩ : BufTy).Contents (Elt F)) (x5 : (⟨S64, .f32⟩ : BufTy).Contents (Elt F)) (x6 : (⟨S5x64x64, .f32⟩ : BufTy).Contents (Elt F)) (x7 : (⟨S64x64, .f32⟩ : BufTy).Contents (Elt F)) (x8 : (⟨S64, .f32⟩ : BufTy).Contents (Elt F)) (x9 : (⟨S64x8, .f32⟩ : BufTy).Contents (Elt F)) (x10 : (⟨S8, .f32⟩ : BufTy).Contents (Elt F)) :
    Cert.ReferenceIdeal.Read.val_main_v240 x0 x1 x2 x3 x4 x5 x6 x7 x8 x9 x10
      = addf (Host.dotGeneral Cert.ReferenceIdeal.dot_S100000x64_S64x8_S100000x8_1_0_0_1_n_n none (Cert.ReferenceIdeal.Read.val_main_v236 x0 x1 x2 x3 x4 x5 x6 x7 x8) x9)
          (broadcastInDim S100000x8 ![0, 1] Cert.ReferenceIdeal.Gen.bcast_S1x8_S100000x8_0_1 (broadcastInDim S1x8 ![1] Cert.ReferenceIdeal.Gen.bcast_S8_S1x8_1 x10)) := rfl

end Cert.RefSpec

end
-- ==== Proof.LayersEq.lean ====
/-
  The kernel program's three results are the reference's.

  Each layer of the kernel program is one dense layer over joined operands; on the extended reals that is the
  reference's layer form, and the reference's stage values are those forms.  The second layer takes the first layer's
  output, and the classifier the second's, on both sides, so the three equalities follow one after the other.
-/
import proofs.«179495_j24472723653074_1_alg».proof.Proof.Layers
import proofs.«179495_j24472723653074_1_alg».proof.Proof.Law
import proofs.«179495_j24472723653074_1_alg».proof.Proof.ClassifierLaw
import proofs.«179495_j24472723653074_1_alg».proof.Proof.RefSpec

noncomputable section

namespace Cert.LayersEq

open Idealize.ShloMosaic Cert.KernelIdeal Cert.HostSpec Cert.RefSpec

/-- The first layer of the kernel program is the reference's first layer. -/
theorem h1_eq (x0 : (⟨S100000x64, .f32⟩ : BufTy).Contents (Elt Ideal)) (x1 : (⟨S2x1200000, .i32⟩ : BufTy).Contents (Elt Ideal)) (x2 : (⟨S1200000, .i32⟩ : BufTy).Contents (Elt Ideal)) (x3 : (⟨S5x64x64, .f32⟩ : BufTy).Contents (Elt Ideal)) (x4 : (⟨S64x64, .f32⟩ : BufTy).Contents (Elt Ideal)) (x5 : (⟨S64, .f32⟩ : BufTy).Contents (Elt Ideal)) :
    Cert.Layers.h1 x0 x1 x2 x3 x4 x5 = Cert.ReferenceIdeal.Read.val_main_v120 x0 x1 x2 x3 x4 x5 := by
  unfold Cert.Layers.h1
  rw [Cert.Law.denseRelu_eq _ _ _ Cert.ReferenceIdeal.Gen.bcast_S_S100000x64, dense_eq_refLayer]
  exact (v120_eq x0 x1 x2 x3 x4 x5).symm

/-- The second layer of the kernel program is the reference's second layer. -/
theorem h2_eq (x0 : (⟨S100000x64, .f32⟩ : BufTy).Contents (Elt Ideal)) (x1 : (⟨S2x1200000, .i32⟩ : BufTy).Contents (Elt Ideal)) (x2 : (⟨S1200000, .i32⟩ : BufTy).Contents (Elt Ideal)) (x3 : (⟨S5x64x64, .f32⟩ : BufTy).Contents (Elt Ideal)) (x4 : (⟨S64x64, .f32⟩ : BufTy).Contents (Elt Ideal)) (x5 : (⟨S64, .f32⟩ : BufTy).Contents (Elt Ideal)) (x6 : (⟨S5x64x64, .f32⟩ : BufTy).Contents (Elt Ideal)) (x7 : (⟨S64x64, .f32⟩ : BufTy).Contents (Elt Ideal)) (x8 : (⟨S64, .f32⟩ : BufTy).Contents (Elt Ideal)) :
    Cert.Layers.h2 x0 x1 x2 x3 x4 x5 x6 x7 x8 = Cert.ReferenceIdeal.Read.val_main_v236 x0 x1 x2 x3 x4 x5 x6 x7 x8 := by
  unfold Cert.Layers.h2
  rw [h1_eq, dense_eq_refLayer]
  exact (v236_eq x0 x1 x2 x3 x4 x5 x6 x7 x8).symm

/-- The classifier of the kernel program is the reference's classifier. -/
theorem logits_eq (x0 : (⟨S100000x64, .f32⟩ : BufTy).Contents (Elt Ideal)) (x1 : (⟨S2x1200000, .i32⟩ : BufTy).Contents (Elt Ideal)) (x2 : (⟨S1200000, .i32⟩ : BufTy).Contents (Elt Ideal)) (x3 : (⟨S5x64x64, .f32⟩ : BufTy).Contents (Elt Ideal)) (x4 : (⟨S64x64, .f32⟩ : BufTy).Contents (Elt Ideal)) (x5 : (⟨S64, .f32⟩ : BufTy).Contents (Elt Ideal)) (x6 : (⟨S5x64x64, .f32⟩ : BufTy).Contents (Elt Ideal)) (x7 : (⟨S64x64, .f32⟩ : BufTy).Contents (Elt Ideal)) (x8 : (⟨S64, .f32⟩ : BufTy).Contents (Elt Ideal)) (x9 : (⟨S64x8, .f32⟩ : BufTy).Contents (Elt Ideal)) (x10 : (⟨S8, .f32⟩ : BufTy).Contents (Elt Ideal)) :
    Cert.Layers.logits x0 x1 x2 x3 x4 x5 x6 x7 x8 x9 x10 = Cert.ReferenceIdeal.Read.val_main_v240 x0 x1 x2 x3 x4 x5 x6 x7 x8 x9 x10 := by
  unfold Cert.Layers.logits
  rw [h2_eq]
  exact (Cert.ClassifierLaw.dense_eq_dot_add Cert.ReferenceIdeal.Gen.dot_S100000x64_S64x8_S100000x8_1_0_0_1_n_n_wf
    (Cert.ReferenceIdeal.Read.val_main_v236 x0 x1 x2 x3 x4 x5 x6 x7 x8) x9 x10 Facts₀.bitsLt_bf16_f32 Facts₀.shapeCasts_S8_S1x8
    Cert.ReferenceIdeal.Gen.bcast_S8_S1x8_1 Cert.ReferenceIdeal.Gen.bcast_S1x8_S100000x8_0_1).trans (v240_eq x0 x1 x2 x3 x4 x5 x6 x7 x8 x9 x10).symm

end Cert.LayersEq

end
-- ==== Proof.lean ====
/-
  Equivalence of a two-layer relational graph convolution network computed with three device matrix products and
  its plain reference, over the extended reals.

  Both programs aggregate, per relation r, the mean over incoming edges of relation r of the source rows (gather by
  source, mask by relation, scatter-add by destination, divide by the larger of the count and one), by the same host
  operations. The reference then adds, per layer, x · root + b and the five products agg_r · W_r one after the other;
  the kernel program joins [x | agg_0 | … | agg_4] along the columns and [root ; W_0 ; … ; W_4] along the rows, and
  one device region computes the single product of the two plus the bias row (the first layer followed by the
  positive part), in 25 blocks of 4000 rows. On the extended reals the rounding of the operands to a shorter format is
  the identity and a sum over 384 = 6 · 64 indices is the sum of its six runs of 64, by commutativity and associativity
  of addition alone: no entry needs to be finite, and the precondition is not used. The classifier is one more dense
  layer on both sides.

  The frames of the two kernel programs come from one run of the program's segments (three host stretches, three
  regions); the reference's frame is its run with the results dropped; the idealization rewrote nothing.
-/
import proofs.«179495_j24472723653074_1_alg».proof.Defs
import proofs.«179495_j24472723653074_1_alg».proof.Proof.Gen.Kernel
import proofs.«179495_j24472723653074_1_alg».proof.Proof.Gen.KernelIdeal
import proofs.«179495_j24472723653074_1_alg».proof.Proof.Gen.ReferenceIdeal
import proofs.«179495_j24472723653074_1_alg».proof.Proof.Gen.Pre_finite_inputs
import proofs.«179495_j24472723653074_1_alg».proof.Proof.Gen.ReferenceIdeal.Run
import proofs.«179495_j24472723653074_1_alg».proof.Proof.Gen.ReferenceIdeal.Read
import proofs.«179495_j24472723653074_1_alg».proof.Proof.KKept
import proofs.«179495_j24472723653074_1_alg».proof.Proof.KIResults
import proofs.«179495_j24472723653074_1_alg».proof.Proof.LayersEq

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference's run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- Both runs end with the second layer's output and the classifier's output at the same functions of arguments that
    agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v236_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1]
    exact (Cert.LayersEq.h2_eq _ _ _ _ _ _ _ _ _).symm
  · rw [Cert.ReferenceIdeal.Read.val_main_v240_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    exact (Cert.LayersEq.logits_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
